-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S2000x32x256 : Shape := ⟨3, ![2000, 32, 256]⟩
abbrev S2000x24x256 : Shape := ⟨3, ![2000, 24, 256]⟩
abbrev S256x256 : Shape := ⟨2, ![256, 256]⟩
abbrev S256 : Shape := ⟨1, ![256]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel
  bcast_S_S2000x32x256 : S_.BroadcastsInDim S2000x32x256 (![] : Fin 0 → Fin S2000x32x256.rank)
  reducesTo_S2000x32x256_S_d0_1_2 : S2000x32x256.ReducesTo [0, 1, 2] S_
  bcast_S_S2000x24x256 : S_.BroadcastsInDim S2000x24x256 (![] : Fin 0 → Fin S2000x24x256.rank)
  reducesTo_S2000x24x256_S_d0_1_2 : S2000x24x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x512x256 .f32) (main_arg1 : FVec F S2000x32x256 .f32) (main_arg2 : FVec F S2000x24x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  let main_v4 : FVec F S2000x32x256 .f32 := Host.absf main_arg1
  let main_cst_0 : FVec F S_ .f32 := constant S_ .f32 0x7F800000#32
  let main_v5 : FVec F S2000x32x256 .f32 := broadcastInDim S2000x32x256 ![] bcast_S_S2000x32x256 main_cst_0
  let main_v6 : IVec S2000x32x256 1 := cmpf .olt main_v4 main_v5
  let main_c_1 : IVec S_ 1 := constantI S_ 1 1#1
  let main_v7 : IVec S_ 1 := (fun x v => Host.reduce IntOp.andi x v reducesTo_S2000x32x256_S_d0_1_2 h_S_) main_v6 main_c_1
  let main_v8 : IVec S_ 1 := andi main_v3 main_v7
  let main_v9 : FVec F S2000x24x256 .f32 := Host.absf main_arg2
  let main_cst_2 : FVec F S_ .f32 := constant S_ .f32 0x7F800000#32
  let main_v10 : FVec F S2000x24x256 .f32 := broadcastInDim S2000x24x256 ![] bcast_S_S2000x24x256 main_cst_2
  let main_v11 : IVec S2000x24x256 1 := cmpf .olt main_v9 main_v10
  let main_c_3 : IVec S_ 1 := constantI S_ 1 1#1
  let main_v12 : IVec S_ 1 := (fun x v => Host.reduce IntOp.andi x v reducesTo_S2000x24x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S2x512x256 : Shape := ⟨3, ![2, 512, 256]⟩
abbrev S2000x32x256 : Shape := ⟨3, ![2000, 32, 256]⟩
abbrev S2000x24x256 : Shape := ⟨3, ![2000, 24, 256]⟩
abbrev S256x256 : Shape := ⟨2, ![256, 256]⟩
abbrev S256 : Shape := ⟨1, ![256]⟩
abbrev S1024x256 : Shape := ⟨2, ![1024, 256]⟩
abbrev S1x256 : Shape := ⟨2, ![1, 256]⟩
abbrev S2000x1024 : Shape := ⟨2, ![2000, 1024]⟩
abbrev S80x32x256 : Shape := ⟨3, ![80, 32, 256]⟩
abbrev S80x24x256 : Shape := ⟨3, ![80, 24, 256]⟩
abbrev S80x1024 : Shape := ⟨2, ![80, 1024]⟩
abbrev S2560x256 : Shape := ⟨2, ![2560, 256]⟩
abbrev S2560x1024 : Shape := ⟨2, ![2560, 1024]⟩
abbrev S80x32x1024 : Shape := ⟨3, ![80, 32, 1024]⟩
abbrev S1920x256 : Shape := ⟨2, ![1920, 256]⟩
abbrev S1920x1024 : Shape := ⟨2, ![1920, 1024]⟩
abbrev S80x24x1024 : Shape := ⟨3, ![80, 24, 1024]⟩
abbrev S_ : Shape := ⟨0, ![]⟩
abbrev S1024 : Shape := ⟨1, ![1024]⟩
abbrev S1x1024 : Shape := ⟨2, ![1, 1024]⟩
abbrev S1024x2000 : Shape := ⟨2, ![1024, 2000]⟩
abbrev S2x512x2000 : Shape := ⟨3, ![2, 512, 2000]⟩

abbrev nBuf : Space → Nat
  | .hbm => 33
  | .vmem => 21
  | .smem => 0
  | _ => 0

abbrev bufTy : (tb : Table) → Fin (tcTables nBuf tb) → BufTy
  | .hbm, ⟨0, _⟩ => ⟨S2x512x256, .f32⟩
  | .hbm, ⟨1, _⟩ => ⟨S2000x32x256, .f32⟩
  | .hbm, ⟨2, _⟩ => ⟨S2000x24x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1024x256, .f32⟩
  | .hbm, ⟨14, _⟩ => ⟨S1024x256, .bf16⟩
  | .hbm, ⟨15, _⟩ => ⟨S1024x256, .bf16⟩
  | .hbm, ⟨16, _⟩ => ⟨S2000x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S2000x1024, .f32⟩
  | .hbm, ⟨24, _⟩ => ⟨S2000x1024, .f32⟩
  | .hbm, ⟨25, _⟩ => ⟨S2000x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2000x1024, .f32⟩
  | .hbm, ⟨30, _⟩ => ⟨S2000x1024, .f32⟩
  | .hbm, ⟨31, _⟩ => ⟨S1024x2000, .f32⟩
  | .hbm, ⟨32, _⟩ => ⟨S2x512x2000, .f32⟩
  | .local _ .vmem, ⟨0, _⟩ => ⟨S1024x256, .f32⟩
  | .local _ .vmem, ⟨1, _⟩ => ⟨S256x256, .f32⟩
  | .local _ .vmem, ⟨2, _⟩ => ⟨S256, .f32⟩
  | .local _ .vmem, ⟨3, _⟩ => ⟨S256x256, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S80x32x256, .f32⟩
  | .local _ .vmem, ⟨12, _⟩ => ⟨S80x32x256, .f32⟩
  | .local _ .vmem, ⟨13, _⟩ => ⟨S80x24x256, .f32⟩
  | .local _ .vmem, ⟨14, _⟩ => ⟨S80x24x256, .f32⟩
  | .local _ .vmem, ⟨15, _⟩ => ⟨S256x256, .f32⟩
  | .local _ .vmem, ⟨16, _⟩ => ⟨S256, .f32⟩
  | .local _ .vmem, ⟨17, _⟩ => ⟨S256x256, .f32⟩
  | .local _ .vmem, ⟨18, _⟩ => ⟨S256, .f32⟩
  | .local _ .vmem, ⟨19, _⟩ => ⟨S80x1024, .f32⟩
  | .local _ .vmem, ⟨20, _⟩ => ⟨S80x1024, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S80x32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x24x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S80x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S2x512x256_S1024x256 : S2x512x256.ShapeCasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S80x32x256_S80x32x256_0_0_0 : ∀ a, (![0, 0, 0] : Fin 3 → Nat) a + S80x32x256.size a ≤ S80x32x256.size a
  h_S80x32x256 : 0 < S80x32x256.numel
  shapeCasts_S80x32x256_S2560x256 : S80x32x256.ShapeCasts S2560x256
  broadcasts_S1x256_S2560x256 : S1x256.Broadcasts S2560x256
  shapeCasts_S2560x1024_S80x32x1024 : S2560x1024.ShapeCasts S80x32x1024
  reduces_S80x32x1024_S80x1024 : S80x32x1024.Reduces [1] S80x1024
  inb_S80x24x256_S80x24x256_0_0_0 : ∀ a, (![0, 0, 0] : Fin 3 → Nat) a + S80x24x256.size a ≤ S80x24x256.size a
  h_S80x24x256 : 0 < S80x24x256.numel
  shapeCasts_S80x24x256_S1920x256 : S80x24x256.ShapeCasts S1920x256
  broadcasts_S1x256_S1920x256 : S1x256.Broadcasts S1920x256
  shapeCasts_S1920x1024_S80x24x1024 : S1920x1024.ShapeCasts S80x24x1024
  reduces_S80x24x1024_S80x1024 : S80x24x1024.Reduces [1] S80x1024
  inb_S80x1024_S80x1024_0_0 : ∀ a, (![0, 0] : Fin 2 → Nat) a + S80x1024.size a ≤ S80x1024.size a
  h_S80x1024 : 0 < S80x1024.numel
  reducesTo_S2000x1024_S1024_d0 : S2000x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2000x1024_0_1 : S1x1024.BroadcastsInDim S2000x1024 (![0, 1] : Fin 2 → Fin S2000x1024.rank)
  transposes_S2000x1024_S1024x2000_1_0 : S2000x1024.Transposes [1, 0] S1024x2000
  shapeCasts_S1024x2000_S2x512x2000 : S1024x2000.ShapeCasts S2x512x2000
  dot_S1024x256_S256x256_S1024x256_1_1_0_0_n_n_wf : DotDims.WF S1024x256 S256x256 S1024x256 [1] [1] [0] [0] [] []
  dot_S2560x256_S256x256_S2560x256_1_1_0_0_n_n_wf : DotDims.WF S2560x256 S256x256 S2560x256 [1] [1] [0] [0] [] []
  dot_S2560x256_S1024x256_S2560x1024_1_1_0_0_n_n_wf : DotDims.WF S2560x256 S1024x256 S2560x1024 [1] [1] [0] [0] [] []
  dot_S1920x256_S256x256_S1920x256_1_1_0_0_n_n_wf : DotDims.WF S1920x256 S256x256 S1920x256 [1] [1] [0] [0] [] []
  dot_S1920x256_S1024x256_S1920x1024_1_1_0_0_n_n_wf : DotDims.WF S1920x256 S1024x256 S1920x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x256.size a
  hwx0_8 : ∀ i : grid0.Coords, EltTy.bits .bf16 = 32 ∨ (Rect.block (s := S1024x256) S1024x256.size (cc0_transform_8 i) (hinb0_8 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .bf16 = 32 ∨ (Rect.block (s := S1024x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .bf16 = 32 ∨ (Rect.block (s := S1024x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x32x256.size a ≤ S2000x32x256.size a
  hwx1_2 : ∀ i : grid1.Coords, EltTy.bits .f32 = 32 ∨ (Rect.block (s := S2000x32x256) S80x32x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x24x256.size a ≤ S2000x24x256.size a
  hwx1_3 : ∀ i : grid1.Coords, EltTy.bits .f32 = 32 ∨ (Rect.block (s := S2000x24x256) S80x24x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S80x1024.size a ≤ S2000x1024.size a
  hwx1_8 : ∀ i : grid1.Coords, EltTy.bits .f32 = 32 ∨ (Rect.block (s := S2000x1024) S80x1024.size (cc1_transform_8 i) (hinb1_8 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2560x256_S256x256_S2560x256_1_1_0_0_n_n : DotDims S2560x256 S256x256 S2560x256 where
  lhsContracting := [1]
  rhsContracting := [1]
  lhsNonContracting := [0]
  rhsNonContracting := [0]
  lhsBatch := []
  rhsBatch := []
  wf := dot_S2560x256_S256x256_S2560x256_1_1_0_0_n_n_wf
def dot_S2560x256_S1024x256_S2560x1024_1_1_0_0_n_n : DotDims S2560x256 S1024x256 S2560x1024 where
  lhsContracting := [1]
  rhsContracting := [1]
  lhsNonContracting := [0]
  rhsNonContracting := [0]
  lhsBatch := []
  rhsBatch := []
  wf := dot_S2560x256_S1024x256_S2560x1024_1_1_0_0_n_n_wf
def dot_S1920x256_S256x256_S1920x256_1_1_0_0_n_n : DotDims S1920x256 S256x256 S1920x256 where
  lhsContracting := [1]
  rhsContracting := [1]
  lhsNonContracting := [0]
  rhsNonContracting := [0]
  lhsBatch := []
  rhsBatch := []
  wf := dot_S1920x256_S256x256_S1920x256_1_1_0_0_n_n_wf
def dot_S1920x256_S1024x256_S1920x1024_1_1_0_0_n_n : DotDims S1920x256 S1024x256 S1920x1024 where
  lhsContracting := [1]
  rhsContracting := [1]
  lhsNonContracting := [0]
  rhsNonContracting := [0]
  lhsBatch := []
  rhsBatch := []
  wf := dot_S1920x256_S1024x256_S1920x1024_1_1_0_0_n_n_wf

abbrev win0_0 : Pipeline.Window sig grid0 :=
  Pipeline.Window.ofSpec (Memref.whole main_v0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S1024x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S1024x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v1_0) S1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S80x32x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S80x24x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2) S80x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2x512x256 : Shape := ⟨3, ![2, 512, 256]⟩
abbrev S2000x32x256 : Shape := ⟨3, ![2000, 32, 256]⟩
abbrev S2000x24x256 : Shape := ⟨3, ![2000, 24, 256]⟩
abbrev S256x256 : Shape := ⟨2, ![256, 256]⟩
abbrev S256 : Shape := ⟨1, ![256]⟩
abbrev S1x1x256 : Shape := ⟨3, ![1, 1, 256]⟩
abbrev S2x512x2000x32 : Shape := ⟨4, ![2, 512, 2000, 32]⟩
abbrev S_ : Shape := ⟨0, ![]⟩
abbrev S2x512x2000 : Shape := ⟨3, ![2, 512, 2000]⟩
abbrev S2x512x2000x24 : Shape := ⟨4, ![2, 512, 2000, 24]⟩
abbrev S2x512 : Shape := ⟨2, ![2, 512]⟩
abbrev S2x512x1 : Shape := ⟨3, ![2, 512, 1]⟩

abbrev nBuf : Space → Nat
  | .hbm => 57
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2000x32x256, .f32⟩
  | .hbm, ⟨2, _⟩ => ⟨S2000x24x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S2x512x256, .f32⟩
  | .hbm, ⟨14, _⟩ => ⟨S1x1x256, .f32⟩
  | .hbm, ⟨15, _⟩ => ⟨S2x512x256, .f32⟩
  | .hbm, ⟨16, _⟩ => ⟨S2x512x256, .f32⟩
  | .hbm, ⟨17, _⟩ => ⟨S2x512x256, .f32⟩
  | .hbm, ⟨18, _⟩ => ⟨S1x1x256, .f32⟩
  | .hbm, ⟨19, _⟩ => ⟨S2x512x256, .f32⟩
  | .hbm, ⟨20, _⟩ => ⟨S2x512x256, .f32⟩
  | .hbm, ⟨21, _⟩ => ⟨S2x512x256, .f32⟩
  | .hbm, ⟨22, _⟩ => ⟨S1x1x256, .f32⟩
  | .hbm, ⟨23, _⟩ => ⟨S2x512x256, .f32⟩
  | .hbm, ⟨24, _⟩ => ⟨S2x512x256, .f32⟩
  | .hbm, ⟨25, _⟩ => ⟨S2000x32x256, .f32⟩
  | .hbm, ⟨26, _⟩ => ⟨S1x1x256, .f32⟩
  | .hbm, ⟨27, _⟩ => ⟨S2000x32x256, .f32⟩
  | .hbm, ⟨28, _⟩ => ⟨S2000x32x256, .f32⟩
  | .hbm, ⟨29, _⟩ => ⟨S2000x24x256, .f32⟩
  | .hbm, ⟨30, _⟩ => ⟨S1x1x256, .f32⟩
  | .hbm, ⟨31, _⟩ => ⟨S2000x24x256, .f32⟩
  | .hbm, ⟨32, _⟩ => ⟨S2000x24x256, .f32⟩
  | .hbm, ⟨33, _⟩ => ⟨S2x512x2000x32, .f32⟩
  | .hbm, ⟨34, _⟩ => ⟨S_, .f32⟩
  | .hbm, ⟨35, _⟩ => ⟨S2x512x2000, .f32⟩
  | .hbm, ⟨36, _⟩ => ⟨S2x512x2000x24, .f32⟩
  | .hbm, ⟨37, _⟩ => ⟨S_, .f32⟩
  | .hbm, ⟨38, _⟩ => ⟨S2x512x2000, .f32⟩
  | .hbm, ⟨39, _⟩ => ⟨S2x512x2000, .f32⟩
  | .hbm, ⟨40, _⟩ => ⟨S_, .f32⟩
  | .hbm, ⟨41, _⟩ => ⟨S2x512x2000, .f32⟩
  | .hbm, ⟨42, _⟩ => ⟨S2x512x2000, .f32⟩
  | .hbm, ⟨43, _⟩ => ⟨S_, .f32⟩
  | .hbm, ⟨44, _⟩ => ⟨S2x512, .f32⟩
  | .hbm, ⟨45, _⟩ => ⟨S_, .f32⟩
  | .hbm, ⟨46, _⟩ => ⟨S2x512, .f32⟩
  | .hbm, ⟨47, _⟩ => ⟨S2x512, .f32⟩
  | .hbm, ⟨48, _⟩ => ⟨S2x512x1, .f32⟩
  | .hbm, ⟨49, _⟩ => ⟨S2x512x2000, .f32⟩
  | .hbm, ⟨50, _⟩ => ⟨S2x512x2000, .f32⟩
  | .hbm, ⟨51, _⟩ => ⟨S2x512x2000, .f32⟩
  | .hbm, ⟨52, _⟩ => ⟨S_, .f32⟩
  | .hbm, ⟨53, _⟩ => ⟨S2x512, .f32⟩
  | .hbm, ⟨54, _⟩ => ⟨S2x512x1, .f32⟩
  | .hbm, ⟨55, _⟩ => ⟨S2x512x2000, .f32⟩
  | .hbm, ⟨56, _⟩ => ⟨S2x512x2000, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2x512x256_0_1_2 : S1x1x256.BroadcastsInDim S2x512x256 (![0, 1, 2] : Fin 3 → Fin S2x512x256.rank)
  bcast_S1x1x256_S2000x32x256_0_1_2 : S1x1x256.BroadcastsInDim S2000x32x256 (![0, 1, 2] : Fin 3 → Fin S2000x32x256.rank)
  bcast_S1x1x256_S2000x24x256_0_1_2 : S1x1x256.BroadcastsInDim S2000x24x256 (![0, 1, 2] : Fin 3 → Fin S2000x24x256.rank)
  reducesTo_S2x512x2000x32_S2x512x2000_d3 : S2x512x2000x32.ReducesTo [3] S2x512x2000
  h_S_ : 0 < S_.numel
  reducesTo_S2x512x2000x24_S2x512x2000_d3 : S2x512x2000x24.ReducesTo [3] S2x512x2000
  bcast_S_S2x512x2000 : S_.BroadcastsInDim S2x512x2000 (![] : Fin 0 → Fin S2x512x2000.rank)
  reducesTo_S2x512x2000_S2x512_d2 : S2x512x2000.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x2000_0_1_2 : S2x512x1.BroadcastsInDim S2x512x2000 (![0, 1, 2] : Fin 3 → Fin S2x512x2000.rank)
  dot_S2x512x256_S256x256_S2x512x256_2_1_01_0_n_n_wf : DotDims.WF S2x512x256 S256x256 S2x512x256 [2] [1] [0, 1] [0] [] []
  dot_S2000x32x256_S256x256_S2000x32x256_2_1_01_0_n_n_wf : DotDims.WF S2000x32x256 S256x256 S2000x32x256 [2] [1] [0, 1] [0] [] []
  dot_S2000x24x256_S256x256_S2000x24x256_2_1_01_0_n_n_wf : DotDims.WF S2000x24x256 S256x256 S2000x24x256 [2] [1] [0, 1] [0] [] []
  dot_S2x512x256_S2000x32x256_S2x512x2000x32_2_2_01_01_n_n_wf : DotDims.WF S2x512x256 S2000x32x256 S2x512x2000x32 [2] [2] [0, 1] [0, 1] [] []
  dot_S2x512x256_S2000x24x256_S2x512x2000x24_2_2_01_01_n_n_wf : DotDims.WF S2x512x256 S2000x24x256 S2x512x2000x24 [2] [2] [0, 1] [0, 1] [] []

variable [Facts₀]

def dot_S2x512x256_S256x256_S2x512x256_2_1_01_0_n_n : DotDims S2x512x256 S256x256 S2x512x256 where
  lhsContracting := [2]
  rhsContracting := [1]
  lhsNonContracting := [0, 1]
  rhsNonContracting := [0]
  lhsBatch := []
  rhsBatch := []
  wf := dot_S2x512x256_S256x256_S2x512x256_2_1_01_0_n_n_wf
def dot_S2000x32x256_S256x256_S2000x32x256_2_1_01_0_n_n : DotDims S2000x32x256 S256x256 S2000x32x256 where
  lhsContracting := [2]
  rhsContracting := [1]
  lhsNonContracting := [0, 1]
  rhsNonContracting := [0]
  lhsBatch := []
  rhsBatch := []
  wf := dot_S2000x32x256_S256x256_S2000x32x256_2_1_01_0_n_n_wf
def dot_S2000x24x256_S256x256_S2000x24x256_2_1_01_0_n_n : DotDims S2000x24x256 S256x256 S2000x24x256 where
  lhsContracting := [2]
  rhsContracting := [1]
  lhsNonContracting := [0, 1]
  rhsNonContracting := [0]
  lhsBatch := []
  rhsBatch := []
  wf := dot_S2000x24x256_S256x256_S2000x24x256_2_1_01_0_n_n_wf
def dot_S2x512x256_S2000x32x256_S2x512x2000x32_2_2_01_01_n_n : DotDims S2x512x256 S2000x32x256 S2x512x2000x32 where
  lhsContracting := [2]
  rhsContracting := [2]
  lhsNonContracting := [0, 1]
  rhsNonContracting := [0, 1]
  lhsBatch := []
  rhsBatch := []
  wf := dot_S2x512x256_S2000x32x256_S2x512x2000x32_2_2_01_01_n_n_wf
def dot_S2x512x256_S2000x24x256_S2x512x2000x24_2_2_01_01_n_n : DotDims S2x512x256 S2000x24x256 S2x512x2000x24 where
  lhsContracting := [2]
  rhsContracting := [2]
  lhsNonContracting := [0, 1]
  rhsNonContracting := [0, 1]
  lhsBatch := []
  rhsBatch := []
  wf := dot_S2x512x256_S2000x24x256_S2x512x2000x24_2_2_01_01_n_n_wf

class Facts : Prop extends Facts₀ where

variable [Facts]
-- ==== Proof.RunValue.lean ====
/-
  The idealized kernel's run with its result named: every weakly fair execution ends with the result array holding what
  the last stretch of host operations leaves there, computed from the contents the second region leaves, and with the
  thirteen argument arrays as launched.
-/
import proofs.«112821_j10754598109467_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its four segments — a reshape, the two regions, the softmax stretch — read against the final
    state: every unscoped buffer ends at the last boundary's contents, so the result buffer holds those contents at its
    reference and each argument its launch contents. -/
theorem run_result : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunValue

end
-- ==== Proof.Spec.lean ====
/-
  Late-interaction scoring followed by a softmax over the candidates, written once over the extended reals.

  A query row x of 256 features goes through two linear layers (x ↦ x·Wᵀ + b); each candidate c holds J token rows,
  each through one linear layer; the score of a query against a candidate is the largest inner product of the
  projected query with one of the candidate's projected tokens. Two such scores (a 32-token and a 24-token family)
  are added, and the 2000 sums of one query are turned into a distribution by a softmax.
-/
import Idealize.ShloMosaic.PureOps.Ideal
import Idealize.ShloMosaic.Lib.ValueIdx

noncomputable section

namespace Cert.MaxSim

open Idealize.ShloMosaic Idealize.ShloMosaic.ValueIdx

/-- Arrays of extended reals over literal shapes. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- The value every running maximum starts from (the pattern of −∞). -/
def floor : EReal := Ideal.ofBits .f32 0xFF800000#32

/-- A linear layer at output feature `f`: the inner product of the row `x` with row `f` of the weight, plus the bias. -/
def lin (x : Fin 256 → EReal) (W : A2 256 256) (b : A1 256) (f : Fin 256) : EReal :=
  (∑ d : Fin 256, x d * W (ix2 f d)) + b (ix1 f)

/-- The first projection of the query at position `(s, t)`. -/
def query (me : A3 2 512 256) (Wq : A2 256 256) (bq : A1 256) (s : Fin 2) (t : Fin 512) : Fin 256 → EReal :=
  lin (fun e => me (ix3 s t e)) Wq bq

/-- Token `j` of candidate `c`, projected. -/
def key {J : ℕ} (x : A3 2000 J 256) (W : A2 256 256) (b : A1 256) (c : Fin 2000) (j : Fin J) : Fin 256 → EReal :=
  lin (fun e => x (ix3 c j e)) W b

/-- The best inner product of a query row with one of a candidate's `J` token rows. -/
def maxsim {J : ℕ} (q : Fin 256 → EReal) (k : Fin J → Fin 256 → EReal) : EReal :=
  (Finset.univ : Finset (Fin J)).fold max floor (fun j => ∑ d : Fin 256, q d * k j d)

/-- The logit of candidate `c` for the query at `(s, t)`: the two families' scores added. -/
def logit (me : A3 2 512 256) (ctx : A3 2000 32 256) (xph : A3 2000 24 256) (Wq : A2 256 256) (bq : A1 256)
    (W1 : A2 256 256) (b1 : A1 256) (W2 : A2 256 256) (b2 : A1 256) (W3 : A2 256 256) (b3 : A1 256)
    (W4 : A2 256 256) (b4 : A1 256) (s : Fin 2) (t : Fin 512) (c : Fin 2000) : EReal :=
  maxsim (lin (query me Wq bq s t) W1 b1) (key ctx W2 b2 c) + maxsim (lin (query me Wq bq s t) W3 b3) (key xph W4 b4 c)

/-- The largest of 2000 logits, as the softmax takes it: a running maximum from the floor, once more against the floor. -/
def rowMax (z : Fin 2000 → EReal) : EReal := max floor ((Finset.univ : Finset (Fin 2000)).fold max floor z)

/-- The softmax of 2000 logits at position `c`: the exponential of the shifted logit over the sum of them all. -/
def softmaxAt (z : Fin 2000 → EReal) (c : Fin 2000) : EReal :=
  Ideal.div (Ideal.exp (z c - rowMax z))
    (Ideal.ofBits .f32 0x00000000#32 + ∑ c' : Fin 2000, Ideal.exp (z c' - rowMax z))

/-- The whole result: for each query position the softmax over the candidates of its logits. -/
def result (me : A3 2 512 256) (ctx : A3 2000 32 256) (xph : A3 2000 24 256) (Wq : A2 256 256) (bq : A1 256)
    (W1 : A2 256 256) (b1 : A1 256) (W2 : A2 256 256) (b2 : A1 256) (W3 : A2 256 256) (b3 : A1 256)
    (W4 : A2 256 256) (b4 : A1 256) : A3 2 512 2000 :=
  fun i => softmaxAt (fun c => logit me ctx xph Wq bq W1 b1 W2 b2 W3 b3 W4 b4 (i 0) (i 1) c) (i 2)

end Cert.MaxSim

end
-- ==== Proof.LibDotNT.lean ====
/-
  A matrix product with BOTH operands contracted on their second axis — an [M, K] operand times an [N, K]
  operand, no batch axis — read at the entry (p, e) over the extended reals: the sum over k of the left operand
  at (p, k) times the right operand at (e, k). This is x · wᵀ for a weight stored with the output feature on
  its first axis. Stated for the on-chip product accumulated into a zero splat, for any dimension record that
  is the one with contracting axes [1] and [1].
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The contraction index of this product has one axis, of extent `K`. -/
theorem contr_rank : (DotDims.transposedRhs M K N).contr.rank = 1 := rfl
theorem contr_size : (DotDims.transposedRhs M K N).contr.size ⟨0, by rw [contr_rank]; exact Nat.one_pos⟩ = K := rfl

/-- The one-coordinate contraction index with coordinate `k`. -/
abbrev cidx (k : Fin K) : (DotDims.transposedRhs M K N).contr.Idx :=
  (contrEquiv1 (DotDims.transposedRhs M K N) K contr_rank contr_size).symm k

/-- The left operand is read at row `p`, column `k`. -/
theorem lhsIdx_eq (p : Fin M) (e : Fin N) (k : Fin K) :
    (DotDims.transposedRhs M K N).lhsIdx (ix2 p e) (cidx k) = ix2 p k := by
  funext a
  apply Fin.ext
  match a with
  | ⟨0, _⟩ => rfl
  | ⟨1, _⟩ =>
    exact ((DotDims.transposedRhs M K N).lhsIdx_val_of_single rfl (ix2 p e) (cidx k)).trans
      (contrEquiv1_symm_val (DotDims.transposedRhs M K N) K contr_rank contr_size k)

/-- The right operand is read at row `e`, column `k`. -/
theorem rhsIdx_eq (p : Fin M) (e : Fin N) (k : Fin K) :
    (DotDims.transposedRhs M K N).rhsIdx (ix2 p e) (cidx k) = ix2 e k := by
  funext a
  apply Fin.ext
  match a with
  | ⟨0, _⟩ => rfl
  | ⟨1, _⟩ =>
    exact ((DotDims.transposedRhs M K N).rhsIdx_val_of_single rfl (ix2 p e) (cidx k)).trans
      (contrEquiv1_symm_val (DotDims.transposedRhs M K N) K contr_rank contr_size k)

/-- The contraction sum of this product, re-indexed over `Fin K`. -/
theorem sum_eq (l : (⟨2, ![M, K]⟩ : Shape).Idx → EReal) (r : (⟨2, ![N, K]⟩ : Shape).Idx → EReal) (p : Fin M) (e : Fin N) :
    (∑ q : (DotDims.transposedRhs M K N).contr.Idx,
        l ((DotDims.transposedRhs M K N).lhsIdx (ix2 p e) q) * r ((DotDims.transposedRhs M K N).rhsIdx (ix2 p e) q))
      = ∑ k : Fin K, l (ix2 p k) * r (ix2 e k) := by
  rw [← Equiv.sum_comp (contrEquiv1 (DotDims.transposedRhs M K N) K contr_rank contr_size).symm]
  refine Finset.sum_congr rfl fun k _ => ?_
  rw [lhsIdx_eq p e k, rhsIdx_eq p e k]

/-- The on-chip product accumulated into the zero splat, at entry `(p, e)`: the sum over the shared second axis. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (e : Fin N) :
    FloatOps.matmul d prec l r (constant (F := Ideal) ⟨2, ![M, N]⟩ .f32 0x00000000#32) (ix2 p e) = ∑ k : Fin K, l (ix2 p k) * r (ix2 e k) := by
  subst hd
  rw [Ideal.matmul_constant_zero_apply]
  exact sum_eq l r p e

end Cert.DotNT

end
-- ==== Proof.PayProj.lean ====
/-
  The query-projection body's two stored values, read at an entry: two linear layers applied to a row of the input.
-/
import proofs.«112821_j10754598109467_2_alg».proof.Proof.Gen.KernelIdeal.Skeleton
import proofs.«112821_j10754598109467_2_alg».proof.Proof.Spec
import proofs.«112821_j10754598109467_2_alg».proof.Proof.LibDotNT
import Idealize.ShloMosaic.Lib.ValueLayout

noncomputable section

namespace Cert.KernelIdeal.Pay

open Idealize.ShloMosaic Idealize.ShloMosaic.ValueIdx Cert.KernelIdeal Cert.KernelIdeal.Gen

/-- One linear layer as the body computes it — the product of a block of rows with the transposed weight, accumulated
    into zero, plus the bias laid down the rows — read at row `p`, feature `f`: the inner product of row `p` with row
    `f` of the weight, plus the bias at `f`. Narrowing the weight changes nothing over the extended reals. -/
private theorem layer_apply {M : ℕ} {φ : FTy} (d : DotDims ⟨2, ![M, 256]⟩ ⟨2, ![256, 256]⟩ ⟨2, ![M, 256]⟩)
    (hd : d = DotDims.transposedRhs M 256 256) (x : FVec Ideal ⟨2, ![M, 256]⟩ φ) (W : FVec Ideal ⟨2, ![256, 256]⟩ .f32)
    (b : FVec Ideal ⟨1, ![256]⟩ .f32) (ht : FTy.bits .bf16 < FTy.bits .f32)
    (hc : (⟨1, ![256]⟩ : Shape).ShapeCasts ⟨2, ![1, 256]⟩) (hb : (⟨2, ![1, 256]⟩ : Shape).Broadcasts ⟨2, ![M, 256]⟩)
    (p : Fin M) (f : Fin 256) :
    addf (matmul d none x (truncf .bf16 W ht) (constant (F := Ideal) ⟨2, ![M, 256]⟩ .f32 0x00000000#32))
        (broadcastTo ⟨2, ![M, 256]⟩ (shapeCast ⟨2, ![1, 256]⟩ b hc) hb) (ix2 p f)
      = MaxSim.lin (fun e => x (ix2 p e)) W b f := by
  refine (addf_apply _ _ _).trans ?_
  unfold MaxSim.lin
  refine congrArg₂ (· + ·) ?_ ?_
  · exact Cert.DotNT.matmul_zero_apply d hd none x (truncf .bf16 W ht) p f
  · exact (broadcastTo_1b_ab_apply _ hb p f).trans (shapeCast_a_1a_apply b hc 0 f)

private theorem dot_proj_eq : dot_S1024x256_S256x256_S1024x256_1_1_0_0_n_n = DotDims.transposedRhs 1024 256 256 := rfl

/-- The first projection of the block, read at an entry. -/
private theorem pay1_apply (v0 : Vec Ideal S1024x256 .f32) (v3 : Vec Ideal S256x256 .f32) (v6 : Vec Ideal S256 .f32)
    (r : Fin 1024) (e : Fin 256) :
    k0_pay1 v0 v3 v6 (ix2 r e) = MaxSim.lin (fun e => v0 (ix2 r e)) v3 v6 e := by
  unfold k0_pay1
  refine (truncf_apply (φ := .f32) (ψ := .bf16) _ bitsLt_bf16_f32 _).trans ?_
  rw [shapeCast_self]
  exact layer_apply _ dot_proj_eq (truncf .bf16 v0 bitsLt_bf16_f32) v3 v6 _ _ _ r e

theorem proj_sw (v0 : Vec Ideal S1024x256 .f32) (v3 : Vec Ideal S256x256 .f32) (v6 : Vec Ideal S256 .f32)
    (v11 : Vec Ideal S256x256 .f32) (v14 : Vec Ideal S256 .f32) (r : Fin 1024) (f : Fin 256) :
    k0_pay2 v0 v3 v6 v11 v14 (ix2 r f) = MaxSim.lin (MaxSim.lin (fun e => v0 (ix2 r e)) v3 v6) v11 v14 f := by
  unfold k0_pay2
  refine (truncf_apply (φ := .f32) (ψ := .bf16) _ bitsLt_bf16_f32 _).trans ?_
  refine (layer_apply _ dot_proj_eq (k0_pay1 v0 v3 v6) v11 v14 _ _ _ r f).trans ?_
  exact congrArg (fun x => MaxSim.lin x v11 v14 f) (funext fun e => pay1_apply v0 v3 v6 r e)

theorem proj_pho (v0 : Vec Ideal S1024x256 .f32) (v3 : Vec Ideal S256x256 .f32) (v6 : Vec Ideal S256 .f32)
    (v20 : Vec Ideal S256x256 .f32) (v23 : Vec Ideal S256 .f32) (r : Fin 1024) (f : Fin 256) :
    k0_pay3 v0 v3 v6 v20 v23 (ix2 r f) = MaxSim.lin (MaxSim.lin (fun e => v0 (ix2 r e)) v3 v6) v20 v23 f := by
  unfold k0_pay3
  refine (truncf_apply (φ := .f32) (ψ := .bf16) _ bitsLt_bf16_f32 _).trans ?_
  refine (layer_apply _ dot_proj_eq (k0_pay1 v0 v3 v6) v20 v23 _ _ _ r f).trans ?_
  exact congrArg (fun x => MaxSim.lin x v20 v23 f) (funext fun e => pay1_apply v0 v3 v6 r e)

end Cert.KernelIdeal.Pay

end
-- ==== Proof.Region0.lean ====
/-
  The projection region as two arrays. Its grid has one point, whose blocks are the whole arrays: the region reads the
  1024 flattened query rows, three weight matrices and three biases, and writes the two projected query arrays; the
  entry at row r, feature f of each is two linear layers applied to row r of the input.
-/
import proofs.«112821_j10754598109467_2_alg».proof.Proof.Gen.KernelIdeal.Frame
import proofs.«112821_j10754598109467_2_alg».proof.Proof.PayProj
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl

/-- Two linear layers applied to row `r` of the flattened input, at feature `f`. -/
def projAt (x : Vec Ideal S1024x256 .f32) (Wq : Vec Ideal S256x256 .f32) (bq : Vec Ideal S256 .f32)
    (W : Vec Ideal S256x256 .f32) (b : Vec Ideal S256 .f32) (r : Fin 1024) (f : Fin 256) : EReal :=
  MaxSim.lin (MaxSim.lin (fun e => x (ix2 r e)) Wq bq) W b f

/-- A projected query array. -/
def proj (x : Vec Ideal S1024x256 .f32) (Wq : Vec Ideal S256x256 .f32) (bq : Vec Ideal S256 .f32)
    (W : Vec Ideal S256x256 .f32) (b : Vec Ideal S256 .f32) : Vec Ideal S1024x256 .bf16 :=
  fun i => projAt x Wq bq W b (i 0) (i 1)

/-- The printed index maps at the grid's one point: every window is on block zero. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each input window's one block is its array -/

/-- The flattened input. -/
theorem x_whole (c : Dev nD) (t : Fin cfg0.N) :
    (iblk0 V c 0 t : Vec Ideal S1024x256 .f32) = (V c main_v0 : Vec Ideal S1024x256 .f32) :=
  funext fun x => by
    obtain ⟨p, q, rfl⟩ : ∃ (p : Fin 1024) (q : Fin 256), x = ix2 p q := ⟨x 0, x 1, eq_ix2 x⟩
    obtain ⟨e0, e1, -⟩ := idx_facts t
    unfold iblk0
    rw [View.read_apply]
    show V c main_v0 _ = V c main_v0 _
    refine congrArg _ (funext fun a => Fin.ext ?_)
    match a with
    | ⟨0, _⟩ => show win0_0.index t (0 : Fin 2) * 1024 + 1 * p.val = p.val; rw [e0]; omega
    | ⟨1, _⟩ => show win0_0.index t (1 : Fin 2) * 256 + 1 * q.val = q.val; rw [e1]; omega

theorem Wq_whole (c : Dev nD) (t : Fin cfg0.N) :
    (iblk0 V c 1 t : Vec Ideal S256x256 .f32) = (V c main_arg3 : Vec Ideal S256x256 .f32) :=
  funext fun x => by
    obtain ⟨p, q, rfl⟩ : ∃ (p : Fin 256) (q : Fin 256), x = ix2 p q := ⟨x 0, x 1, eq_ix2 x⟩
    obtain ⟨-, -, e0, e1, -⟩ := idx_facts t
    unfold iblk0
    rw [View.read_apply]
    show V c main_arg3 _ = V c main_arg3 _
    refine congrArg _ (funext fun a => Fin.ext ?_)
    match a with
    | ⟨0, _⟩ => show win0_1.index t (0 : Fin 2) * 256 + 1 * p.val = p.val; rw [e0]; omega
    | ⟨1, _⟩ => show win0_1.index t (1 : Fin 2) * 256 + 1 * q.val = q.val; rw [e1]; omega

theorem bq_whole (c : Dev nD) (t : Fin cfg0.N) :
    (iblk0 V c 2 t : Vec Ideal S256 .f32) = (V c main_arg4 : Vec Ideal S256 .f32) :=
  funext fun x => by
    obtain ⟨p, rfl⟩ : ∃ (p : Fin 256), x = ix1 p := ⟨x 0, eq_ix1 x⟩
    obtain ⟨-, -, -, -, e0, -⟩ := idx_facts t
    unfold iblk0
    rw [View.read_apply]
    show V c main_arg4 _ = V c main_arg4 _
    refine congrArg _ (funext fun a => Fin.ext ?_)
    match a with
    | ⟨0, _⟩ => show win0_2.index t (0 : Fin 1) * 256 + 1 * p.val = p.val; rw [e0]; omega

theorem W1_whole (c : Dev nD) (t : Fin cfg0.N) :
    (iblk0 V c 3 t : Vec Ideal S256x256 .f32) = (V c main_arg5 : Vec Ideal S256x256 .f32) :=
  funext fun x => by
    obtain ⟨p, q, rfl⟩ : ∃ (p : Fin 256) (q : Fin 256), x = ix2 p q := ⟨x 0, x 1, eq_ix2 x⟩
    obtain ⟨-, -, -, -, -, e0, e1, -⟩ := idx_facts t
    unfold iblk0
    rw [View.read_apply]
    show V c main_arg5 _ = V c main_arg5 _
    refine congrArg _ (funext fun a => Fin.ext ?_)
    match a with
    | ⟨0, _⟩ => show win0_3.index t (0 : Fin 2) * 256 + 1 * p.val = p.val; rw [e0]; omega
    | ⟨1, _⟩ => show win0_3.index t (1 : Fin 2) * 256 + 1 * q.val = q.val; rw [e1]; omega

theorem b1_whole (c : Dev nD) (t : Fin cfg0.N) :
    (iblk0 V c 4 t : Vec Ideal S256 .f32) = (V c main_arg6 : Vec Ideal S256 .f32) :=
  funext fun x => by
    obtain ⟨p, rfl⟩ : ∃ (p : Fin 256), x = ix1 p := ⟨x 0, eq_ix1 x⟩
    obtain ⟨-, -, -, -, -, -, -, e0, -⟩ := idx_facts t
    unfold iblk0
    rw [View.read_apply]
    show V c main_arg6 _ = V c main_arg6 _
    refine congrArg _ (funext fun a => Fin.ext ?_)
    match a with
    | ⟨0, _⟩ => show win0_4.index t (0 : Fin 1) * 256 + 1 * p.val = p.val; rw [e0]; omega

theorem W3_whole (c : Dev nD) (t : Fin cfg0.N) :
    (iblk0 V c 5 t : Vec Ideal S256x256 .f32) = (V c main_arg9 : Vec Ideal S256x256 .f32) :=
  funext fun x => by
    obtain ⟨p, q, rfl⟩ : ∃ (p : Fin 256) (q : Fin 256), x = ix2 p q := ⟨x 0, x 1, eq_ix2 x⟩
    obtain ⟨-, -, -, -, -, -, -, -, e0, e1, -⟩ := idx_facts t
    unfold iblk0
    rw [View.read_apply]
    show V c main_arg9 _ = V c main_arg9 _
    refine congrArg _ (funext fun a => Fin.ext ?_)
    match a with
    | ⟨0, _⟩ => show win0_5.index t (0 : Fin 2) * 256 + 1 * p.val = p.val; rw [e0]; omega
    | ⟨1, _⟩ => show win0_5.index t (1 : Fin 2) * 256 + 1 * q.val = q.val; rw [e1]; omega

theorem b3_whole (c : Dev nD) (t : Fin cfg0.N) :
    (iblk0 V c 6 t : Vec Ideal S256 .f32) = (V c main_arg10 : Vec Ideal S256 .f32) :=
  funext fun x => by
    obtain ⟨p, rfl⟩ : ∃ (p : Fin 256), x = ix1 p := ⟨x 0, eq_ix1 x⟩
    obtain ⟨-, -, -, -, -, -, -, -, -, -, e0, -⟩ := idx_facts t
    unfold iblk0
    rw [View.read_apply]
    show V c main_arg10 _ = V c main_arg10 _
    refine congrArg _ (funext fun a => Fin.ext ?_)
    match a with
    | ⟨0, _⟩ => show win0_6.index t (0 : Fin 1) * 256 + 1 * p.val = p.val; rw [e0]; omega

/-! ## What the point writes back, the cover, the arrays -/

theorem out7_emb (t : Fin cfg0.N) (r : Fin 1024) (f : Fin 256) :
    ((cfg0.win 7).blk t).view.emb (ix2 r f) = (ix2 r f : S1024x256.Idx) := by
  obtain ⟨-, -, -, -, -, -, -, -, -, -, -, e0, e1, -⟩ := idx_facts t
  refine funext fun a => Fin.ext ?_
  match a with
  | ⟨0, _⟩ => show win0_7.index t (0 : Fin 2) * 1024 + 1 * r.val = r.val; rw [e0]; omega
  | ⟨1, _⟩ => show win0_7.index t (1 : Fin 2) * 256 + 1 * f.val = f.val; rw [e1]; omega

theorem out8_emb (t : Fin cfg0.N) (r : Fin 1024) (f : Fin 256) :
    ((cfg0.win 8).blk t).view.emb (ix2 r f) = (ix2 r f : S1024x256.Idx) := by
  obtain ⟨-, -, -, -, -, -, -, -, -, -, -, -, -, e0, e1⟩ := idx_facts t
  refine funext fun a => Fin.ext ?_
  match a with
  | ⟨0, _⟩ => show win0_8.index t (0 : Fin 2) * 1024 + 1 * r.val = r.val; rw [e0]; omega
  | ⟨1, _⟩ => show win0_8.index t (1 : Fin 2) * 256 + 1 * f.val = f.val; rw [e1]; omega

/-- The point writes back the first projected query array. -/
theorem flushed7_eq (c : Dev nD) (t : Fin cfg0.N) :
    (dat0 V c).flushed 7 t = ((cfg0.win 7).blk t).view.read (Elt Ideal)
      (proj (V c main_v0) (V c main_arg3) (V c main_arg4) (V c main_arg5) (V c main_arg6)) := by
  show (cfg0.win 7).cut (grid0.coords t) ((dat0 V c).after 7 t) = _
  rw [after0_7]
  unfold out0_7
  rw [View.canon_unit_zero hz2]
  simp only [View.ld_unit_zero (S := S256x256) hz2, View.ld_unit_zero (S := S256) hz1, View.ld_unit_zero (S := S1024x256) hz2]
  funext y
  obtain ⟨r, f, rfl⟩ : ∃ (r : Fin 1024) (f : Fin 256), y = ix2 r f := ⟨y 0, y 1, eq_ix2 y⟩
  rw [View.read_apply, out7_emb t r f]
  refine (Pay.proj_sw _ _ _ _ _ r f).trans ?_
  rw [x_whole V c t, Wq_whole V c t, bq_whole V c t, W1_whole V c t, b1_whole V c t]
  rfl

/-- The point writes back the second projected query array. -/
theorem flushed8_eq (c : Dev nD) (t : Fin cfg0.N) :
    (dat0 V c).flushed 8 t = ((cfg0.win 8).blk t).view.read (Elt Ideal)
      (proj (V c main_v0) (V c main_arg3) (V c main_arg4) (V c main_arg9) (V c main_arg10)) := by
  show (cfg0.win 8).cut (grid0.coords t) ((dat0 V c).after 8 t) = _
  rw [after0_8]
  unfold out0_8
  rw [View.canon_unit_zero hz2]
  simp only [View.ld_unit_zero (S := S256x256) hz2, View.ld_unit_zero (S := S256) hz1, View.ld_unit_zero (S := S1024x256) hz2]
  funext y
  obtain ⟨r, f, rfl⟩ : ∃ (r : Fin 1024) (f : Fin 256), y = ix2 r f := ⟨y 0, y 1, eq_ix2 y⟩
  rw [View.read_apply, out8_emb t r f]
  refine (Pay.proj_pho _ _ _ _ _ r f).trans ?_
  rw [x_whole V c t, Wq_whole V c t, bq_whole V c t, W3_whole V c t, b3_whole V c t]
  rfl

theorem mem_blk7 (t : Fin cfg0.N) (i : S1024x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v1_0).slice (win0_7.rect t)).set ↔ _
  rw [View.set_slice_whole, Rect.mem_set_unit]
  exact Iff.rfl

theorem mem_blk8 (t : Fin cfg0.N) (i : S1024x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v1_1).slice (win0_8.rect t)).set ↔ _
  rw [View.set_slice_whole, Rect.mem_set_unit]
  exact Iff.rfl

/-- The one point's block is the whole array. -/
theorem cover7 (i : S1024x256.Idx) :
    ∃ t : Fin cfg0.N, (cfg0.win 7).flush t = true ∧ i ∈ ((cfg0.win 7).blk t).view.set := by
  have hi0 : (i 0).val < 1024 := (i 0).isLt
  have hi1 : (i 1).val < 256 := (i 1).isLt
  obtain ⟨-, -, -, -, -, -, -, -, -, -, -, e0, e1, -⟩ := idx_facts t0_0
  refine ⟨t0_0, flush0_7 t0_0, ?_⟩
  rw [mem_blk7]
  intro a
  match a with
  | ⟨0, _⟩ =>
    show win0_7.index t0_0 (0 : Fin 2) * 1024 ≤ (i 0).val ∧ (i 0).val < win0_7.index t0_0 (0 : Fin 2) * 1024 + 1024
    rw [e0]; omega
  | ⟨1, _⟩ =>
    show win0_7.index t0_0 (1 : Fin 2) * 256 ≤ (i 1).val ∧ (i 1).val < win0_7.index t0_0 (1 : Fin 2) * 256 + 256
    rw [e1]; omega

theorem cover8 (i : S1024x256.Idx) :
    ∃ t : Fin cfg0.N, (cfg0.win 8).flush t = true ∧ i ∈ ((cfg0.win 8).blk t).view.set := by
  have hi0 : (i 0).val < 1024 := (i 0).isLt
  have hi1 : (i 1).val < 256 := (i 1).isLt
  obtain ⟨-, -, -, -, -, -, -, -, -, -, -, -, -, e0, e1⟩ := idx_facts t0_0
  refine ⟨t0_0, flush0_8 t0_0, ?_⟩
  rw [mem_blk8]
  intro a
  match a with
  | ⟨0, _⟩ =>
    show win0_8.index t0_0 (0 : Fin 2) * 1024 ≤ (i 0).val ∧ (i 0).val < win0_8.index t0_0 (0 : Fin 2) * 1024 + 1024
    rw [e0]; omega
  | ⟨1, _⟩ =>
    show win0_8.index t0_0 (1 : Fin 2) * 256 ≤ (i 1).val ∧ (i 1).val < win0_8.index t0_0 (1 : Fin 2) * 256 + 256
    rw [e1]; omega

/-- After the region the two output arrays are the projected queries of the arrays the region found. -/
theorem final7 (c : Dev nD) :
    (dat0 V c).arrAt 7 cfg0.N = proj (V c main_v0) (V c main_arg3) (V c main_arg4) (V c main_arg5) (V c main_arg6) :=
  (dat0 V c).arrAt_eq_of_cover 7 _ (fun t _ => flushed7_eq V c t) cover7

theorem final8 (c : Dev nD) :
    (dat0 V c).arrAt 8 cfg0.N = proj (V c main_v0) (V c main_arg3) (V c main_arg4) (V c main_arg9) (V c main_arg10) :=
  (dat0 V c).arrAt_eq_of_cover 8 _ (fun t _ => flushed8_eq V c t) cover8

end Cert.KernelIdeal.Region0

end
-- ==== Proof.LibTileLayout.lean ====
/-
  Layout operations of a tiled row space, read at an entry given by coordinates.

  A stack of `a` tiles of `b` rows of width `c` — an array `[a, b, c]` — flattened to `[a·b, c]` puts row `j` of
  tile `i` at row `i·b + j`, and the reshape back reads it there: both arrays list their entries in the same row-major
  order. A matrix `[a, b]` held as the one slab of `[1, a, b]` and broadcast along the leading axis to `[c, a, b]`
  reads the matrix at `(i, j)` whatever the leading coordinate. A vector `[b]` cast to `[1, 1, b]` and broadcast to
  `[a, c, b]` reads the vector at the last coordinate.
-/
import Idealize.ShloMosaic.Lib.Pipeline.Value
import Idealize.ShloMosaic.Lib.ValueIdx

namespace Cert.TileLayout

open Idealize.ShloMosaic Idealize.ShloMosaic.ValueIdx

variable {α : Type}

/-- `[a, b, c]` flattened to `[n, c]` (with `n = a·b`): row `r = i·b + j` at column `k` is the entry `(i, j, k)`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- `[n, c]` (with `n = a·b`) split into `[a, b, c]`: the entry `(i, j, k)` is row `r = i·b + j` at column `k`. -/
theorem unflatten_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- The slab array `[1, a, b]` broadcast to `[c, a, b]` reads, at `(k, i, j)`, the slab at `(i, j)`. -/
theorem broadcastTo_1ab_cab_apply {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[b]` cast to `[1, 1, b]` reads, at `(u, w, j)`, the vector at `j`, whatever the unit coordinates. -/
theorem shapeCast_b_11b_apply {b : ℕ} (x : (⟨1, ![b]⟩ : Shape).Idx → α)
    (h : (⟨1, ![b]⟩ : Shape).ShapeCasts ⟨3, ![1, 1, b]⟩) (u w : Fin 1) (j : Fin b) :
    shapeCast ⟨3, ![1, 1, b]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * b + j.val
    simp [hu, hw])

/-- `[1, 1, b]` broadcast to `[a, c, b]` reads, at `(i, k, j)`, its one row at `j`. -/
theorem broadcastTo_11b_acb_apply {a c b : ℕ} (v : (⟨3, ![1, 1, b]⟩ : Shape).Idx → α)
    (h : (⟨3, ![1, 1, b]⟩ : Shape).Broadcasts ⟨3, ![a, c, b]⟩) (i : Fin a) (k : Fin c) (j : Fin b) :
    broadcastTo ⟨3, ![a, c, b]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Cert.TileLayout
-- ==== Proof.PayMain.lean ====
/-
  The scoring body's stored value, read at an entry: for candidate row i of the block and query row r, the two
  families' best inner products added.
-/
import proofs.«112821_j10754598109467_2_alg».proof.Proof.Gen.KernelIdeal.Skeleton
import proofs.«112821_j10754598109467_2_alg».proof.Proof.Spec
import proofs.«112821_j10754598109467_2_alg».proof.Proof.LibDotNT
import proofs.«112821_j10754598109467_2_alg».proof.Proof.LibTileLayout
import Idealize.ShloMosaic.Lib.ValueLayout

noncomputable section

namespace Cert.KernelIdeal.Pay

open Idealize.ShloMosaic Idealize.ShloMosaic.ValueIdx Cert.KernelIdeal Cert.KernelIdeal.Gen

/-- One linear layer as the body computes it — the product of a block of rows with the transposed weight, accumulated
    into zero, plus the bias laid down the rows — read at row `p`, feature `f`: the inner product of row `p` with row
    `f` of the weight, plus the bias at `f`. Narrowing the weight changes nothing over the extended reals. -/
private theorem layer_apply {M : ℕ} {φ : FTy} (d : DotDims ⟨2, ![M, 256]⟩ ⟨2, ![256, 256]⟩ ⟨2, ![M, 256]⟩)
    (hd : d = DotDims.transposedRhs M 256 256) (x : FVec Ideal ⟨2, ![M, 256]⟩ φ) (W : FVec Ideal ⟨2, ![256, 256]⟩ .f32)
    (b : FVec Ideal ⟨1, ![256]⟩ .f32) (ht : FTy.bits .bf16 < FTy.bits .f32)
    (hc : (⟨1, ![256]⟩ : Shape).ShapeCasts ⟨2, ![1, 256]⟩) (hb : (⟨2, ![1, 256]⟩ : Shape).Broadcasts ⟨2, ![M, 256]⟩)
    (p : Fin M) (f : Fin 256) :
    addf (matmul d none x (truncf .bf16 W ht) (constant (F := Ideal) ⟨2, ![M, 256]⟩ .f32 0x00000000#32))
        (broadcastTo ⟨2, ![M, 256]⟩ (shapeCast ⟨2, ![1, 256]⟩ b hc) hb) (ix2 p f)
      = MaxSim.lin (fun e => x (ix2 p e)) W b f := by
  refine (addf_apply _ _ _).trans ?_
  unfold MaxSim.lin
  refine congrArg₂ (· + ·) ?_ ?_
  · exact Cert.DotNT.matmul_zero_apply d hd none x (truncf .bf16 W ht) p f
  · exact (broadcastTo_1b_ab_apply _ hb p f).trans (shapeCast_a_1a_apply b hc 0 f)

/-- The reduced index `(g, c)` of a `[G, m, n]` block reduced over its middle axis, with the middle coordinate `k`
    put back, is `(g, k, c)`. -/
private theorem lift_mid {G m n : ℕ} (h : (⟨3, ![G, m, n]⟩ : Shape).Reduces [1] (⟨2, ![G, n]⟩ : Shape)) (g : Fin G) (c : Fin n)
    (k : Fin ((⟨3, ![G, m, n]⟩ : Shape).size 1)) :
    h.lift (ix2 g c) k = ix3 g (⟨k.val, k.isLt⟩ : Fin m) c := by
  funext a; apply Fin.ext
  fin_cases a <;> rfl

/-- The maximum over the middle axis at `(g, c)`: the fold of `max` over the `m` entries `(g, ·, c)`, from the
    accumulator's value. -/
private theorem midMax_apply {G m n : ℕ} (s : FVec Ideal ⟨3, ![G, m, n]⟩ .f32) (acc : BitVec 32)
    (h : (⟨3, ![G, m, n]⟩ : Shape).Reduces [1] (⟨2, ![G, n]⟩ : Shape)) (hφ : FKind.Formats .f32)
    (hacc : acc = FKind.maximumf.neutral .f32 hφ) (g : Fin G) (c : Fin n) :
    multiReduction .maximumf [1] ⟨2, ![G, n]⟩ s acc h hφ hacc (ix2 g c)
      = (Finset.univ : Finset (Fin m)).fold max (Ideal.ofBits .f32 acc) (fun j => s (ix3 g j c)) := by
  refine (Ideal.multiReduction_maximumf_single s acc h hφ hacc (ix2 g c)).trans ?_
  have hf : (s ∘ h.lift (ix2 g c)) = fun j : Fin m => s (ix3 g j c) :=
    funext fun k => congrArg s (lift_mid h g c k)
  exact congrArg (fun f => Finset.fold max (Ideal.ofBits .f32 acc) f (Finset.univ : Finset (Fin m))) hf

/-- One family's score as the body computes it. The `80` candidates' `J` token rows are stacked into `n = 80·J` rows,
    sent through the linear layer, multiplied against every query row, unstacked, and the maximum over the `J` tokens
    taken: at candidate `i` and query row `r` this is the best inner product of the query row with one of the
    candidate's projected tokens. -/
private theorem family_apply {J n : ℕ} (W : FVec Ideal ⟨2, ![256, 256]⟩ .f32) (b : FVec Ideal ⟨1, ![256]⟩ .f32)
    (q : FVec Ideal ⟨2, ![1024, 256]⟩ .bf16) (x : FVec Ideal ⟨3, ![80, J, 256]⟩ .f32)
    (ht : FTy.bits .bf16 < FTy.bits .f32)
    (hflat : (⟨3, ![80, J, 256]⟩ : Shape).ShapeCasts ⟨2, ![n, 256]⟩)
    (d1 : DotDims ⟨2, ![n, 256]⟩ ⟨2, ![256, 256]⟩ ⟨2, ![n, 256]⟩) (hd1 : d1 = DotDims.transposedRhs n 256 256)
    (hc : (⟨1, ![256]⟩ : Shape).ShapeCasts ⟨2, ![1, 256]⟩) (hb : (⟨2, ![1, 256]⟩ : Shape).Broadcasts ⟨2, ![n, 256]⟩)
    (hq : (⟨2, ![1024, 256]⟩ : Shape).ShapeCasts ⟨2, ![1024, 256]⟩)
    (d2 : DotDims ⟨2, ![n, 256]⟩ ⟨2, ![1024, 256]⟩ ⟨2, ![n, 1024]⟩) (hd2 : d2 = DotDims.transposedRhs n 256 1024)
    (hun : (⟨2, ![n, 1024]⟩ : Shape).ShapeCasts ⟨3, ![80, J, 1024]⟩)
    (hr : (⟨3, ![80, J, 1024]⟩ : Shape).Reduces [1] (⟨2, ![80, 1024]⟩ : Shape)) (hφ : FKind.Formats .f32)
    (hacc : 0xFF800000#32 = FKind.maximumf.neutral .f32 hφ) (hn : n = 80 * J) (i : Fin 80) (r : Fin 1024) :
    multiReduction .maximumf [1] ⟨2, ![80, 1024]⟩
        (shapeCast ⟨3, ![80, J, 1024]⟩
          (matmul d2 none
            (truncf .bf16
              (addf
                (matmul d1 none (shapeCast ⟨2, ![n, 256]⟩ (truncf .bf16 x ht) hflat) (truncf .bf16 W ht)
                  (constant (F := Ideal) ⟨2, ![n, 256]⟩ .f32 0x00000000#32))
                (broadcastTo ⟨2, ![n, 256]⟩ (shapeCast ⟨2, ![1, 256]⟩ b hc) hb))
              ht)
            (shapeCast ⟨2, ![1024, 256]⟩ q hq) (constant (F := Ideal) ⟨2, ![n, 1024]⟩ .f32 0x00000000#32))
          hun)
        0xFF800000#32 hr hφ hacc (ix2 i r)
      = MaxSim.maxsim (fun d => q (ix2 r d)) (fun j => MaxSim.lin (fun e => x (ix3 i j e)) W b) := by
  refine (midMax_apply _ _ hr hφ hacc i r).trans ?_
  unfold MaxSim.maxsim MaxSim.floor
  refine Finset.fold_congr fun j _ => ?_
  have hrow : i.val * J + j.val < n := by
    have hi := i.isLt
    have hj := j.isLt
    rw [hn]
    calc i.val * J + j.val < i.val * J + J := by omega
      _ = (i.val + 1) * J := by ring
      _ ≤ 80 * J := Nat.mul_le_mul_right J (by omega)
  refine (Cert.TileLayout.unflatten_apply _ hun i j r ⟨i.val * J + j.val, hrow⟩ rfl).trans ?_
  refine (Cert.DotNT.matmul_zero_apply d2 hd2 none _ _ ⟨i.val * J + j.val, hrow⟩ r).trans ?_
  refine Finset.sum_congr rfl fun d _ => ?_
  refine (mul_comm _ _).trans ?_
  refine congrArg₂ (· * ·) (congrFun (shapeCast_self q hq) (ix2 r d)) ?_
  refine (truncf_apply (φ := .f32) (ψ := .bf16) _ ht _).trans ?_
  refine (layer_apply d1 hd1 _ W b ht hc hb ⟨i.val * J + j.val, hrow⟩ d).trans ?_
  exact congrArg (fun y => MaxSim.lin y W b d) (funext fun e =>
    (Cert.TileLayout.flatten_apply _ hflat i j e ⟨i.val * J + j.val, hrow⟩ rfl).trans
      (truncf_apply (φ := .f32) (ψ := .bf16) x ht (ix3 i j e)))

theorem main_pay (v0 : Vec Ideal S256x256 .f32) (v2 : Vec Ideal S256 .f32) (v3 : Vec Ideal S256x256 .f32) (v5 : Vec Ideal S256 .f32)
    (v6 v8 : Vec Ideal S1024x256 .bf16) (v10 : Vec Ideal S80x32x256 .f32) (v21 : Vec Ideal S80x24x256 .f32)
    (i : Fin 80) (r : Fin 1024) :
    k1_pay1 v0 v2 v3 v5 v6 v8 v10 v21 (ix2 i r)
      = MaxSim.maxsim (fun d => v6 (ix2 r d)) (fun j => MaxSim.lin (fun e => v10 (ix3 i j e)) v0 v2)
        + MaxSim.maxsim (fun d => v8 (ix2 r d)) (fun j => MaxSim.lin (fun e => v21 (ix3 i j e)) v3 v5) := by
  unfold k1_pay1
  refine (addf_apply _ _ _).trans ?_
  refine congrArg₂ (· + ·) ?_ ?_
  · exact family_apply v0 v2 v6 v10 bitsLt_bf16_f32 _ _ rfl _ _ _ _ rfl _ _ _ _ (by norm_num) i r
  · exact family_apply v3 v5 v8 v21 bitsLt_bf16_f32 _ _ rfl _ _ _ _ rfl _ _ _ _ (by norm_num) i r

end Cert.KernelIdeal.Pay

end
-- ==== Proof.Region1.lean ====
/-
  The scoring region as one array. Grid point t of 25 writes rows 80t … 80t+79 of the [2000, 1024] score array; the entry
  at candidate row cc and query row r is the sum of the two families' best inner products of the projected query row r
  with the projected tokens of candidate cc. The 25 row blocks tile the array, so after the region the array is that
  function of the arrays the region reads.
-/
import proofs.«112821_j10754598109467_2_alg».proof.Proof.Gen.KernelIdeal.Frame
import proofs.«112821_j10754598109467_2_alg».proof.Proof.PayMain
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The score of candidate row `cc` against query row `r`, from the projected queries and the raw candidate tokens. -/
def scoreAt (qsw qpho : Vec Ideal S1024x256 .bf16) (ctx : Vec Ideal S2000x32x256 .f32) (xph : Vec Ideal S2000x24x256 .f32)
    (W2 : Vec Ideal S256x256 .f32) (b2 : Vec Ideal S256 .f32) (W4 : Vec Ideal S256x256 .f32) (b4 : Vec Ideal S256 .f32)
    (cc : Fin 2000) (r : Fin 1024) : EReal :=
  MaxSim.maxsim (fun d => qsw (ix2 r d)) (fun j => MaxSim.lin (fun e => ctx (ix3 cc j e)) W2 b2)
    + MaxSim.maxsim (fun d => qpho (ix2 r d)) (fun j => MaxSim.lin (fun e => xph (ix3 cc j e)) W4 b4)

/-- The score array. -/
def scores (qsw qpho : Vec Ideal S1024x256 .bf16) (ctx : Vec Ideal S2000x32x256 .f32) (xph : Vec Ideal S2000x24x256 .f32)
    (W2 : Vec Ideal S256x256 .f32) (b2 : Vec Ideal S256 .f32) (W4 : Vec Ideal S256x256 .f32) (b4 : Vec Ideal S256 .f32) :
    Vec Ideal S2000x1024 .f32 :=
  fun i => scoreAt qsw qpho ctx xph W2 b2 W4 b4 (i 0) (i 1)

/-- The printed index maps over the grid: the two candidate windows and the output move one block of 80 rows per point,
    every other window stays on its one block. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-! ## Each window's block at a point, read at an entry of the array the region found -/

/-- A window that stays on its one whole-array block reads the array itself: the projected queries. -/
theorem qsw_block (c : Dev nD) (t : Fin cfg1.N) (r : Fin 1024) (d : Fin 256) :
    (iblk1 V c 0 t : Vec Ideal S1024x256 .bf16) (ix2 r d) = (V c main_v1_0 : Vec Ideal S1024x256 .bf16) (ix2 r d) := by
  obtain ⟨e0, e1, -⟩ := idx_facts t
  unfold iblk1
  rw [View.read_apply]
  show V c main_v1_0 _ = V c main_v1_0 _
  refine congrArg _ (funext fun a => Fin.ext ?_)
  match a with
  | ⟨0, _⟩ => show win1_0.index t (0 : Fin 2) * 1024 + 1 * r.val = r.val; rw [e0]; omega
  | ⟨1, _⟩ => show win1_0.index t (1 : Fin 2) * 256 + 1 * d.val = d.val; rw [e1]; omega

theorem qsw_whole (c : Dev nD) (t : Fin cfg1.N) :
    (iblk1 V c 0 t : Vec Ideal S1024x256 .bf16) = (V c main_v1_0 : Vec Ideal S1024x256 .bf16) :=
  funext fun x => by
    obtain ⟨r, d, rfl⟩ : ∃ (r : Fin 1024) (d : Fin 256), x = ix2 r d := ⟨x 0, x 1, eq_ix2 x⟩
    exact qsw_block V c t r d

/-- The second projected-query window likewise. -/
theorem qpho_whole (c : Dev nD) (t : Fin cfg1.N) :
    (iblk1 V c 1 t : Vec Ideal S1024x256 .bf16) = (V c main_v1_1 : Vec Ideal S1024x256 .bf16) :=
  funext fun x => by
    obtain ⟨r, d, rfl⟩ : ∃ (r : Fin 1024) (d : Fin 256), x = ix2 r d := ⟨x 0, x 1, eq_ix2 x⟩
    obtain ⟨-, -, e0, e1, -⟩ := idx_facts t
    unfold iblk1
    rw [View.read_apply]
    show V c main_v1_1 _ = V c main_v1_1 _
    refine congrArg _ (funext fun a => Fin.ext ?_)
    match a with
    | ⟨0, _⟩ => show win1_1.index t (0 : Fin 2) * 1024 + 1 * r.val = r.val; rw [e0]; omega
    | ⟨1, _⟩ => show win1_1.index t (1 : Fin 2) * 256 + 1 * d.val = d.val; rw [e1]; omega

/-- Row `i` of the 32-token family's block at point `t` is candidate row `80 t + i` of the array. -/
theorem ctx_block (c : Dev nD) (t : Fin cfg1.N) (i : Fin 80) (j : Fin 32) (e : Fin 256) (cc : Fin 2000)
    (hcc : cc.val = t.val * 80 + i.val) :
    (iblk1 V c 2 t : Vec Ideal S80x32x256 .f32) (ix3 i j e) = (V c main_arg1 : Vec Ideal S2000x32x256 .f32) (ix3 cc j e) := by
  obtain ⟨-, -, -, -, e0, e1, e2, -⟩ := idx_facts t
  unfold iblk1
  rw [View.read_apply]
  show V c main_arg1 _ = V c main_arg1 _
  refine congrArg _ (funext fun a => Fin.ext ?_)
  match a with
  | ⟨0, _⟩ => show win1_2.index t (0 : Fin 3) * 80 + 1 * i.val = cc.val; rw [e0, hcc]; omega
  | ⟨1, _⟩ => show win1_2.index t (1 : Fin 3) * 32 + 1 * j.val = j.val; rw [e1]; omega
  | ⟨2, _⟩ => show win1_2.index t (2 : Fin 3) * 256 + 1 * e.val = e.val; rw [e2]; omega

/-- Row `i` of the 24-token family's block at point `t` is candidate row `80 t + i` of the array. -/
theorem xph_block (c : Dev nD) (t : Fin cfg1.N) (i : Fin 80) (j : Fin 24) (e : Fin 256) (cc : Fin 2000)
    (hcc : cc.val = t.val * 80 + i.val) :
    (iblk1 V c 3 t : Vec Ideal S80x24x256 .f32) (ix3 i j e) = (V c main_arg2 : Vec Ideal S2000x24x256 .f32) (ix3 cc j e) := by
  obtain ⟨-, -, -, -, -, -, -, e0, e1, e2, -⟩ := idx_facts t
  unfold iblk1
  rw [View.read_apply]
  show V c main_arg2 _ = V c main_arg2 _
  refine congrArg _ (funext fun a => Fin.ext ?_)
  match a with
  | ⟨0, _⟩ => show win1_3.index t (0 : Fin 3) * 80 + 1 * i.val = cc.val; rw [e0, hcc]; omega
  | ⟨1, _⟩ => show win1_3.index t (1 : Fin 3) * 24 + 1 * j.val = j.val; rw [e1]; omega
  | ⟨2, _⟩ => show win1_3.index t (2 : Fin 3) * 256 + 1 * e.val = e.val; rw [e2]; omega

/-- The weight and bias windows stay on their one block: they read the arrays themselves. -/
theorem W2_whole (c : Dev nD) (t : Fin cfg1.N) :
    (iblk1 V c 4 t : Vec Ideal S256x256 .f32) = (V c main_arg7 : Vec Ideal S256x256 .f32) :=
  funext fun x => by
    obtain ⟨p, q, rfl⟩ : ∃ (p : Fin 256) (q : Fin 256), x = ix2 p q := ⟨x 0, x 1, eq_ix2 x⟩
    obtain ⟨-, -, -, -, -, -, -, -, -, -, e0, e1, -⟩ := idx_facts t
    unfold iblk1
    rw [View.read_apply]
    show V c main_arg7 _ = V c main_arg7 _
    refine congrArg _ (funext fun a => Fin.ext ?_)
    match a with
    | ⟨0, _⟩ => show win1_4.index t (0 : Fin 2) * 256 + 1 * p.val = p.val; rw [e0]; omega
    | ⟨1, _⟩ => show win1_4.index t (1 : Fin 2) * 256 + 1 * q.val = q.val; rw [e1]; omega

theorem b2_whole (c : Dev nD) (t : Fin cfg1.N) :
    (iblk1 V c 5 t : Vec Ideal S256 .f32) = (V c main_arg8 : Vec Ideal S256 .f32) :=
  funext fun x => by
    obtain ⟨p, rfl⟩ : ∃ (p : Fin 256), x = ix1 p := ⟨x 0, eq_ix1 x⟩
    obtain ⟨-, -, -, -, -, -, -, -, -, -, -, -, e0, -⟩ := idx_facts t
    unfold iblk1
    rw [View.read_apply]
    show V c main_arg8 _ = V c main_arg8 _
    refine congrArg _ (funext fun a => Fin.ext ?_)
    match a with
    | ⟨0, _⟩ => show win1_5.index t (0 : Fin 1) * 256 + 1 * p.val = p.val; rw [e0]; omega

theorem W4_whole (c : Dev nD) (t : Fin cfg1.N) :
    (iblk1 V c 6 t : Vec Ideal S256x256 .f32) = (V c main_arg11 : Vec Ideal S256x256 .f32) :=
  funext fun x => by
    obtain ⟨p, q, rfl⟩ : ∃ (p : Fin 256) (q : Fin 256), x = ix2 p q := ⟨x 0, x 1, eq_ix2 x⟩
    obtain ⟨-, -, -, -, -, -, -, -, -, -, -, -, -, e0, e1, -⟩ := idx_facts t
    unfold iblk1
    rw [View.read_apply]
    show V c main_arg11 _ = V c main_arg11 _
    refine congrArg _ (funext fun a => Fin.ext ?_)
    match a with
    | ⟨0, _⟩ => show win1_6.index t (0 : Fin 2) * 256 + 1 * p.val = p.val; rw [e0]; omega
    | ⟨1, _⟩ => show win1_6.index t (1 : Fin 2) * 256 + 1 * q.val = q.val; rw [e1]; omega

theorem b4_whole (c : Dev nD) (t : Fin cfg1.N) :
    (iblk1 V c 7 t : Vec Ideal S256 .f32) = (V c main_arg12 : Vec Ideal S256 .f32) :=
  funext fun x => by
    obtain ⟨p, rfl⟩ : ∃ (p : Fin 256), x = ix1 p := ⟨x 0, eq_ix1 x⟩
    obtain ⟨-, -, -, -, -, -, -, -, -, -, -, -, -, -, -, e0, -⟩ := idx_facts t
    unfold iblk1
    rw [View.read_apply]
    show V c main_arg12 _ = V c main_arg12 _
    refine congrArg _ (funext fun a => Fin.ext ?_)
    match a with
    | ⟨0, _⟩ => show win1_7.index t (0 : Fin 1) * 256 + 1 * p.val = p.val; rw [e0]; omega

/-! ## What a point writes back, the cover, the array -/

/-- Entry `(i, r)` of the output block at point `t` sits at candidate row `80 t + i`, query row `r` of the array. -/
theorem out_emb (t : Fin cfg1.N) (i : Fin 80) (r : Fin 1024) (cc : Fin 2000) (hcc : cc.val = t.val * 80 + i.val) :
    ((cfg1.win 8).blk t).view.emb (ix2 i r) = (ix2 cc r : S2000x1024.Idx) := by
  obtain ⟨-, -, -, -, -, -, -, -, -, -, -, -, -, -, -, -, e0, e1⟩ := idx_facts t
  refine funext fun a => Fin.ext ?_
  match a with
  | ⟨0, _⟩ => show win1_8.index t (0 : Fin 2) * 80 + 1 * i.val = cc.val; rw [e0, hcc]; omega
  | ⟨1, _⟩ => show win1_8.index t (1 : Fin 2) * 1024 + 1 * r.val = r.val; rw [e1]; omega

/-- What point `t` writes back is block `t` of the score array of the arrays the region found. -/
theorem flushed_eq (c : Dev nD) (t : Fin cfg1.N) :
    (dat1 V c).flushed 8 t = ((cfg1.win 8).blk t).view.read (Elt Ideal)
      (scores (V c main_v1_0) (V c main_v1_1) (V c main_arg1) (V c main_arg2) (V c main_arg7) (V c main_arg8) (V c main_arg11) (V c main_arg12)) := by
  show (cfg1.win 8).cut (grid1.coords t) ((dat1 V c).after 8 t) = _
  rw [after1_8]
  unfold out1_8
  rw [View.canon_unit_zero hz2]
  simp only [View.ld_unit_zero (S := S256x256) hz2, View.ld_unit_zero (S := S256) hz1, View.ld_unit_zero (S := S1024x256) hz2,
    View.ld_unit_zero (S := S80x32x256) hz3, View.ld_unit_zero (S := S80x24x256) hz3]
  funext y
  obtain ⟨i, r, rfl⟩ : ∃ (i : Fin 80) (r : Fin 1024), y = ix2 i r := ⟨y 0, y 1, eq_ix2 y⟩
  have hN : cfg1.N = 25 := N_1
  have ht : t.val < 25 := hN ▸ t.isLt
  let cc : Fin 2000 := ⟨t.val * 80 + i.val, by have := i.isLt; omega⟩
  have hcc : cc.val = t.val * 80 + i.val := rfl
  rw [View.read_apply, out_emb t i r cc hcc]
  refine (Pay.main_pay _ _ _ _ _ _ _ _ i r).trans ?_
  rw [qsw_whole V c t, qpho_whole V c t, W2_whole V c t, b2_whole V c t, W4_whole V c t, b4_whole V c t]
  show _ = scoreAt _ _ _ _ _ _ _ _ cc r
  unfold scoreAt MaxSim.maxsim
  simp only [ctx_block V c t i _ _ cc hcc, xph_block V c t i _ _ cc hcc]

/-- An index of the array is in point `t`'s block iff each coordinate is in the block's range on its axis. -/
theorem mem_blk (t : Fin cfg1.N) (i : S2000x1024.Idx) :
    i ∈ ((cfg1.win 8).blk t).view.set ↔ ∀ a : Fin 2, win1_8.index t a * S80x1024.size a ≤ (i a).val ∧ (i a).val < win1_8.index t a * S80x1024.size a + S80x1024.size a := by
  show i ∈ ((View.whole main_v2).slice (win1_8.rect t)).set ↔ _
  rw [View.set_slice_whole, Rect.mem_set_unit]
  exact Iff.rfl

/-- Every entry of the array lies in the block of the point that owns its candidate row: row `cc` belongs to point `cc / 80`. -/
theorem cover (i : S2000x1024.Idx) :
    ∃ t : Fin cfg1.N, (cfg1.win 8).flush t = true ∧ i ∈ ((cfg1.win 8).blk t).view.set := by
  have hi0 : (i 0).val < 2000 := (i 0).isLt
  have hi1 : (i 1).val < 1024 := (i 1).isLt
  have hN : cfg1.N = 25 := N_1
  let t : Fin cfg1.N := ⟨(i 0).val / 80, by rw [hN]; omega⟩
  have htv : t.val = (i 0).val / 80 := rfl
  obtain ⟨-, -, -, -, -, -, -, -, -, -, -, -, -, -, -, -, e0, e1⟩ := idx_facts t
  refine ⟨t, flush1_8 t, ?_⟩
  rw [mem_blk]
  intro a
  match a with
  | ⟨0, _⟩ =>
    show win1_8.index t (0 : Fin 2) * 80 ≤ (i 0).val ∧ (i 0).val < win1_8.index t (0 : Fin 2) * 80 + 80
    rw [e0, htv]; omega
  | ⟨1, _⟩ =>
    show win1_8.index t (1 : Fin 2) * 1024 ≤ (i 1).val ∧ (i 1).val < win1_8.index t (1 : Fin 2) * 1024 + 1024
    rw [e1]; omega

/-- After the region the score array is `scores` of the arrays the region found. -/
theorem final (c : Dev nD) :
    (dat1 V c).arrAt 8 cfg1.N
      = scores (V c main_v1_0) (V c main_v1_1) (V c main_arg1) (V c main_arg2) (V c main_arg7) (V c main_arg8) (V c main_arg11) (V c main_arg12) :=
  (dat1 V c).arrAt_eq_of_cover 8 _ (fun t _ => flushed_eq V c t) cover

end Cert.KernelIdeal.Region1

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.HostTail.lean ====
/-
  The host operations after the scoring region: a softmax down the candidate axis of the [2000, 1024] score array,
  then the transpose and the split of the 1024 query rows into [2, 512].
-/
import proofs.«112821_j10754598109467_2_alg».proof.Proof.Gen.KernelIdeal.Launch
import proofs.«112821_j10754598109467_2_alg».proof.Proof.Spec
import proofs.«112821_j10754598109467_2_alg».proof.Proof.LibTileLayout
import proofs.«112821_j10754598109467_2_alg».proof.Proof.LibBroadcasts
import Idealize.ShloMosaic.Lib.StableHlo.Run
import Idealize.ShloMosaic.PureOps.Ideal.Laws

noncomputable section

namespace Cert.KernelIdeal.Tail

open Idealize.ShloMosaic Idealize.ShloMosaic.ValueIdx Idealize.ShloMosaic.StableHlo Cert.KernelIdeal Cert.KernelIdeal.Gen

/-- The rank-0 array holding the pattern of −∞: where every running maximum starts. -/
def floor0 : FVec Ideal S_ .f32 := constant (F := Ideal) S_ .f32 0xFF800000#32

/-- The rank-0 array holding the pattern of +0: where the sum of the exponentials starts. -/
def zero0 : FVec Ideal S_ .f32 := constant (F := Ideal) S_ .f32 0x00000000#32

/-- For each query row, the largest score over the 2000 candidates, once more against the floor. -/
def colMax (R : FVec Ideal S2000x1024 .f32) : FVec Ideal S1024 .f32 :=
  maximumf (F := Ideal) (φ := .f32) (broadcastInDim S1024 ![] bcast_S_S1024 floor0)
    (Host.reduce FloatOps.maximumf R floor0 reducesTo_S2000x1024_S1024_d0 h_S_)

/-- A vector over the query rows laid as a row and repeated down the 2000 candidates. -/
def down (v : FVec Ideal S1024 .f32) : FVec Ideal S2000x1024 .f32 :=
  broadcastInDim S2000x1024 ![0, 1] bcast_S1x1024_S2000x1024_0_1 (broadcastInDim S1x1024 ![1] bcast_S1024_S1x1024_1 v)

/-- The exponentials of the scores shifted by their row's maximum. -/
def expo (R : FVec Ideal S2000x1024 .f32) : FVec Ideal S2000x1024 .f32 :=
  Host.exp (F := Ideal) (φ := .f32) (subf (F := Ideal) (φ := .f32) R (down (colMax R)))

/-- For each query row, the sum of its 2000 exponentials. -/
def denom (R : FVec Ideal S2000x1024 .f32) : FVec Ideal S1024 .f32 :=
  Host.reduceAdd (F := Ideal) (φ := .f32) (expo R) zero0 reducesTo_S2000x1024_S1024_d0 h_S_

/-- The sixteen operations as one function of the score array. -/
def tail (R : Vec Ideal S2000x1024 .f32) : Vec Ideal S2x512x2000 .f32 :=
  shapeCast S2x512x2000
    (transpose S1024x2000 [1, 0] (Host.divf (F := Ideal) (φ := .f32) (expo R) (down (denom R)))
      transposes_S2000x1024_S1024x2000_1_0)
    shapeCasts_S1024x2000_S2x512x2000

theorem after_tail (W : Valuation τ sig (Elt Ideal)) :
    StableHlo.after (hostOps2 (F := Ideal)) W (Proc.devRef .tc main_v15) = tail (W (Proc.devRef .tc main_v2)) := by
  show StableHlo.after hostOps2 W (Proc.devRef .tc main_v15) = _
  after_results
  rfl

/-- The elementwise operations read at an index. -/
private theorem maximumf_apply {s : Shape} (x y : FVec Ideal s .f32) (i : s.Idx) :
    maximumf (F := Ideal) (φ := .f32) x y i = max (x i) (y i) := rfl
private theorem subf_apply {s : Shape} (x y : FVec Ideal s .f32) (i : s.Idx) :
    subf (F := Ideal) (φ := .f32) x y i = x i - y i := rfl
private theorem hostExp_apply {s : Shape} (x : FVec Ideal s .f32) (i : s.Idx) :
    Host.exp (F := Ideal) (φ := .f32) x i = Ideal.exp (x i) := rfl
private theorem hostDivf_apply {s : Shape} (x y : FVec Ideal s .f32) (i : s.Idx) :
    Host.divf (F := Ideal) (φ := .f32) x y i = Ideal.div (x i) (y i) := rfl

/-- Both starting values, read at their one index. -/
private theorem floor0_apply (i : S_.Idx) : floor0 i = MaxSim.floor := rfl
private theorem zero0_apply (i : S_.Idx) : zero0 i = Ideal.ofBits .f32 0x00000000#32 := rfl

/-- Query row `r` of the reduced `[1024]` array with candidate `k` put back on the dropped axis is `(k, r)`. -/
private theorem lift_ix1 (h : S2000x1024.Reduces [0] S1024) (r : Fin 1024) (k : Fin (S2000x1024.size 0)) :
    h.lift (ix1 r) k = ix2 (⟨k.val, k.isLt⟩ : Fin 2000) r := by
  funext c; apply Fin.ext
  fin_cases c <;> rfl

/-- The running maximum down the candidate axis at query row `r`: the fold of `max` over the row's 2000 scores. -/
private theorem reduceMax_apply (R : FVec Ideal S2000x1024 .f32) (r : Fin 1024) :
    Host.reduce FloatOps.maximumf R floor0 reducesTo_S2000x1024_S1024_d0 h_S_ (ix1 r)
      = (Finset.univ : Finset (Fin 2000)).fold max (floor0 (Shape.Idx.first h_S_)) (fun c' => R (ix2 c' r)) := by
  have hred : S2000x1024.Reduces [0] S1024 := by decide
  rw [Host.reduce_eq_fold_single FloatOps.maximumf R floor0 reducesTo_S2000x1024_S1024_d0 hred h_S_]
  have hf : (R ∘ hred.lift (ix1 r)) = fun c' : Fin 2000 => R (ix2 c' r) :=
    funext fun k => congrArg R (lift_ix1 hred r k)
  exact congrArg (fun f => Finset.fold max (floor0 (Shape.Idx.first h_S_)) f (Finset.univ : Finset (Fin 2000))) hf

/-- The maximum down the candidate axis at query row `r` is the specification's row maximum of that row's scores. -/
private theorem colMax_apply (R : FVec Ideal S2000x1024 .f32) (r : Fin 1024) :
    colMax R (ix1 r) = MaxSim.rowMax (fun c' => R (ix2 c' r)) := by
  have h0 : broadcastInDim S1024 ![] bcast_S_S1024 floor0 (ix1 r) = floor0 ix0 :=
    Cert.Broadcasts.splat_apply _ bcast_S_S1024 floor0 (ix1 r)
  unfold colMax
  rw [maximumf_apply, h0, reduceMax_apply, floor0_apply, floor0_apply]
  unfold MaxSim.rowMax
  rfl

/-- A vector laid as a row and repeated down the candidates reads, at `(c, r)`, the vector at `r`. -/
private theorem down_apply (v : FVec Ideal S1024 .f32) (c : Fin 2000) (r : Fin 1024) :
    down v (ix2 c r) = v (ix1 r) :=
  Cert.Broadcasts.downRows_apply v bcast_S1024_S1x1024_1 bcast_S1x1024_S2000x1024_0_1 c r

/-- The shifted exponential at `(c, r)`. -/
private theorem expo_apply (R : FVec Ideal S2000x1024 .f32) (c : Fin 2000) (r : Fin 1024) :
    expo R (ix2 c r) = Ideal.exp (R (ix2 c r) - MaxSim.rowMax (fun c' => R (ix2 c' r))) := by
  unfold expo
  rw [hostExp_apply, subf_apply, down_apply, colMax_apply]

/-- The sum down the candidate axis at query row `r`: the starting zero plus the 2000 exponentials of the row. -/
private theorem denom_apply (R : FVec Ideal S2000x1024 .f32) (r : Fin 1024) :
    denom R (ix1 r) = Ideal.ofBits .f32 0x00000000#32 + ∑ c' : Fin 2000, expo R (ix2 c' r) := by
  have hred : S2000x1024.Reduces [0] S1024 := by decide
  unfold denom
  simp only [Host.reduceAdd, Ideal.hostReduceAdd_def]
  rw [Ideal.hostReduceAdd_single reducesTo_S2000x1024_S1024_d0 hred, zero0_apply]
  refine congrArg (_ + ·) (Finset.sum_congr rfl fun k _ => ?_)
  exact congrArg (expo R) (lift_ix1 hred r k)

theorem tail_apply (R : Vec Ideal S2000x1024 .f32) (s : Fin 2) (t : Fin 512) (c : Fin 2000) (r : Fin 1024)
    (hr : r.val = s.val * 512 + t.val) :
    tail R (ix3 s t c) = MaxSim.softmaxAt (fun c' => R (ix2 c' r)) c := by
  unfold tail
  refine (Cert.TileLayout.unflatten_apply _ shapeCasts_S1024x2000_S2x512x2000 s t c r hr).trans ?_
  refine (transpose_apply [1, 0] _ transposes_S2000x1024_S1024x2000_1_0 (ix2 r c) (ix2 c r)
    (fun b => by fin_cases b <;> rfl)).trans ?_
  rw [hostDivf_apply, down_apply, denom_apply, expo_apply]
  unfold MaxSim.softmaxAt
  simp only [expo_apply]

end Cert.KernelIdeal.Tail

end
-- ==== Proof.KernelValue.lean ====
/-
  The idealized kernel's result array, from the launch memory: the reshape of the input to 1024 rows, the projection region,
  the scoring region and the softmax stretch composed. At query position (s, t) and candidate cd the array holds the
  softmax, over the candidates, of the logits of the specification — row r = 512 s + t of the flattened input is the input's
  row (s, t), the projected queries are two linear layers of it, and a score is the best inner product with a candidate's
  projected tokens.
-/
import proofs.«112821_j10754598109467_2_alg».proof.Proof.Gen.KernelIdeal.Frame
import proofs.«112821_j10754598109467_2_alg».proof.Proof.Region0
import proofs.«112821_j10754598109467_2_alg».proof.Proof.Region1
import proofs.«112821_j10754598109467_2_alg».proof.Proof.HostTail
import proofs.«112821_j10754598109467_2_alg».proof.Proof.LibTileLayout
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.KernelValue

open Cert.KernelIdeal Cert.KernelIdeal.Gen

variable (m : (ℓ : Loc nD τ sig) → Buf (Elt Ideal) ℓ) (ρ : Dev nD → PrngReg)

/-! ## The contents each region is entered with -/

/-- The first region finds the input flattened to 1024 rows. -/
theorem V1_x (c : Dev nD) :
    V1 m ρ c main_v0 = shapeCast S1024x256 (m ((c : Thread nD τ).loc main_arg0)) shapeCasts_S2x512x256_S1024x256 := by
  show StableHlo.after hostOps0 (W0 m ρ c) (Proc.devRef .tc main_v0) = _
  after_results
  rfl

theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg11 (c : Dev nD) : V1 m ρ c main_arg11 = m ((c : Thread nD τ).loc main_arg11) := by
  show StableHlo.after hostOps0 (W0 m ρ c) (Proc.devRef .tc main_arg11) = _
  after_results
theorem V1_arg12 (c : Dev nD) : V1 m ρ c main_arg12 = m ((c : Thread nD τ).loc main_arg12) := by
  show StableHlo.after hostOps0 (W0 m ρ c) (Proc.devRef .tc main_arg12) = _
  after_results

/-- The second region finds the arguments as launched: the first region writes only its two outputs. -/
theorem V2_arg1 (c : Dev nD) : V2 m ρ c main_arg1 = m ((c : Thread nD τ).loc main_arg1) :=
  (W2_of_ne m ρ c main_arg1 (by decide)).trans (V1_arg1 m ρ c)
theorem V2_arg2 (c : Dev nD) : V2 m ρ c main_arg2 = m ((c : Thread nD τ).loc main_arg2) :=
  (W2_of_ne m ρ c main_arg2 (by decide)).trans (V1_arg2 m ρ c)
theorem V2_arg7 (c : Dev nD) : V2 m ρ c main_arg7 = m ((c : Thread nD τ).loc main_arg7) :=
  (W2_of_ne m ρ c main_arg7 (by decide)).trans (V1_arg7 m ρ c)
theorem V2_arg8 (c : Dev nD) : V2 m ρ c main_arg8 = m ((c : Thread nD τ).loc main_arg8) :=
  (W2_of_ne m ρ c main_arg8 (by decide)).trans (V1_arg8 m ρ c)
theorem V2_arg11 (c : Dev nD) : V2 m ρ c main_arg11 = m ((c : Thread nD τ).loc main_arg11) :=
  (W2_of_ne m ρ c main_arg11 (by decide)).trans (V1_arg11 m ρ c)
theorem V2_arg12 (c : Dev nD) : V2 m ρ c main_arg12 = m ((c : Thread nD τ).loc main_arg12) :=
  (W2_of_ne m ρ c main_arg12 (by decide)).trans (V1_arg12 m ρ c)

/-- … and the two projected query arrays the first region left. -/
theorem V2_qsw (c : Dev nD) :
    V2 m ρ c main_v1_0 = Region0.proj (shapeCast S1024x256 (m ((c : Thread nD τ).loc main_arg0)) shapeCasts_S2x512x256_S1024x256) (m ((c : Thread nD τ).loc main_arg3)) (m ((c : Thread nD τ).loc main_arg4)) (m ((c : Thread nD τ).loc main_arg5)) (m ((c : Thread nD τ).loc main_arg6)) := by
  refine ((W2_arr m ρ c 7).trans (Region0.final7 (V1 m ρ) c)).trans ?_
  rw [V1_x m ρ c, V1_arg3 m ρ c, V1_arg4 m ρ c, V1_arg5 m ρ c, V1_arg6 m ρ c]

theorem V2_qpho (c : Dev nD) :
    V2 m ρ c main_v1_1 = Region0.proj (shapeCast S1024x256 (m ((c : Thread nD τ).loc main_arg0)) shapeCasts_S2x512x256_S1024x256) (m ((c : Thread nD τ).loc main_arg3)) (m ((c : Thread nD τ).loc main_arg4)) (m ((c : Thread nD τ).loc main_arg9)) (m ((c : Thread nD τ).loc main_arg10)) := by
  refine ((W2_arr m ρ c 8).trans (Region0.final8 (V1 m ρ) c)).trans ?_
  rw [V1_x m ρ c, V1_arg3 m ρ c, V1_arg4 m ρ c, V1_arg9 m ρ c, V1_arg10 m ρ c]

/-- The score array the second region leaves, from the launch memory. -/
theorem scores_eq (c : Dev nD) :
    W3 m ρ c (Proc.devRef .tc main_v2)
      = Region1.scores
          (Region0.proj (shapeCast S1024x256 (m ((c : Thread nD τ).loc main_arg0)) shapeCasts_S2x512x256_S1024x256) (m ((c : Thread nD τ).loc main_arg3)) (m ((c : Thread nD τ).loc main_arg4)) (m ((c : Thread nD τ).loc main_arg5)) (m ((c : Thread nD τ).loc main_arg6)))
          (Region0.proj (shapeCast S1024x256 (m ((c : Thread nD τ).loc main_arg0)) shapeCasts_S2x512x256_S1024x256) (m ((c : Thread nD τ).loc main_arg3)) (m ((c : Thread nD τ).loc main_arg4)) (m ((c : Thread nD τ).loc main_arg9)) (m ((c : Thread nD τ).loc main_arg10)))
          (m ((c : Thread nD τ).loc main_arg1)) (m ((c : Thread nD τ).loc main_arg2)) (m ((c : Thread nD τ).loc main_arg7)) (m ((c : Thread nD τ).loc main_arg8)) (m ((c : Thread nD τ).loc main_arg11)) (m ((c : Thread nD τ).loc main_arg12)) := by
  refine ((W3_arr m ρ c 8).trans (Region1.final (V2 m ρ) c)).trans ?_
  rw [V2_qsw m ρ c, V2_qpho m ρ c, V2_arg1 m ρ c, V2_arg2 m ρ c, V2_arg7 m ρ c, V2_arg8 m ρ c, V2_arg11 m ρ c, V2_arg12 m ρ c]

/-! ## The result -/

/-- Row `512 s + t` of the flattened input is row `(s, t)` of the input. -/
theorem flat_row (x : Vec Ideal S2x512x256 .f32) (s : Fin 2) (t : Fin 512) (e : Fin 256) (r : Fin 1024)
    (hr : r.val = s.val * 512 + t.val) :
    shapeCast S1024x256 x shapeCasts_S2x512x256_S1024x256 (ix2 r e) = x (ix3 s t e) :=
  TileLayout.flatten_apply x shapeCasts_S2x512x256_S1024x256 s t e r hr

/-- The result array is the specification's, of the launch memory's argument arrays. -/
theorem result_eq (c : Dev nD) :
    W4 m ρ c (Proc.devRef .tc main_v15)
      = MaxSim.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (Tail.after_tail (W3 m ρ c)).trans ?_
  rw [scores_eq m ρ c]
  funext i
  obtain ⟨s, t, cd, rfl⟩ : ∃ (s : Fin 2) (t : Fin 512) (cd : Fin 2000), i = ix3 s t cd := ⟨i 0, i 1, i 2, eq_ix3 i⟩
  have hs : s.val < 2 := s.isLt
  have ht : t.val < 512 := t.isLt
  let r : Fin 1024 := ⟨s.val * 512 + t.val, by omega⟩
  have hr : r.val = s.val * 512 + t.val := rfl
  rw [Tail.tail_apply _ s t cd r hr]
  show MaxSim.softmaxAt _ cd = MaxSim.softmaxAt _ cd
  refine congrArg (fun z => MaxSim.softmaxAt z cd) (funext fun c' => ?_)
  show Region1.scoreAt _ _ _ _ _ _ _ _ c' r = _
  unfold Region1.scoreAt MaxSim.logit MaxSim.key MaxSim.query
  have hq : ∀ (W : Vec Ideal S256x256 .f32) (b : Vec Ideal S256 .f32) (d : Fin 256),
      Region0.proj (shapeCast S1024x256 (m ((c : Thread nD τ).loc main_arg0)) shapeCasts_S2x512x256_S1024x256) (m ((c : Thread nD τ).loc main_arg3)) (m ((c : Thread nD τ).loc main_arg4)) W b (ix2 r d)
        = MaxSim.lin (MaxSim.lin (fun e => (m ((c : Thread nD τ).loc main_arg0)) (ix3 s t e)) (m ((c : Thread nD τ).loc main_arg3)) (m ((c : Thread nD τ).loc main_arg4))) W b d := by
    intro W b d
    show Region0.projAt _ _ _ W b r d = _
    unfold Region0.projAt
    simp only [flat_row _ s t _ r hr]
  simp only [hq]

end Cert.KernelIdeal.KernelValue

end
-- ==== Proof.LibRowReduce.lean ====
/-
  Rows reduced over their last axis, at the ideal values.

  A block `[G, m, n]` (reduced by a kernel's `vector.multi_reduction` over the lanes) and an array `[B, H, m, n]`
  (reduced by the host's `stablehlo.reduce` over its last axis) hold `G·m`, respectively `B·H·m`, rows of `n`
  entries each. Reduced over the last axis, the result's entry at a row is a fold of `max`, or a sum, over the `n`
  entries of that row; and the keepdims broadcast that follows a reduction brings the row's value back to every
  entry of the row.
-/
import Idealize.ShloMosaic.PureOps.Ideal.Laws
import Idealize.ShloMosaic.Lib.ValueIdx
import Idealize.ShloMosaic.Lib.Pipeline.Value

noncomputable section

namespace Cert.Lib.RowReduce

open Idealize.ShloMosaic Idealize.ShloMosaic.ValueIdx

variable {G B H m n : Nat}

/-! ## A `[G, m, n]` block reduced over its lanes to `[G, m]` -/

/-- The reduced index `(g, a)` with lane `k` put back is `(g, a, k)`. -/
theorem lift3 (h : (⟨3, ![G, m, n]⟩ : Shape).Reduces [2] (⟨2, ![G, m]⟩ : Shape)) (g : Fin G) (a : Fin m)
    (k : Fin ((⟨3, ![G, m, n]⟩ : Shape).size 2)) :
    h.lift (ix2 g a) k = ix3 g a (⟨k.val, k.isLt⟩ : Fin n) := by
  funext c; apply Fin.ext
  fin_cases c <;> rfl

/-- The lane maximum of row `(g, a)`: the fold of `max` over the row's entries, from the accumulator's value. -/
theorem laneMax_apply (s : FVec Ideal ⟨3, ![G, m, n]⟩ .f32) (acc : BitVec 32)
    (h : (⟨3, ![G, m, n]⟩ : Shape).Reduces [2] (⟨2, ![G, m]⟩ : Shape)) (hφ : FKind.Formats .f32)
    (hacc : acc = FKind.maximumf.neutral .f32 hφ) (g : Fin G) (a : Fin m) :
    multiReduction .maximumf [2] ⟨2, ![G, m]⟩ s acc h hφ hacc (ix2 g a)
      = (Finset.univ : Finset (Fin n)).fold max (Ideal.ofBits .f32 acc) (fun j => s (ix3 g a j)) := by
  refine (Ideal.multiReduction_maximumf_single s acc h hφ hacc (ix2 g a)).trans ?_
  have hf : (s ∘ h.lift (ix2 g a)) = fun j : Fin n => s (ix3 g a j) :=
    funext fun k => congrArg s (lift3 h g a k)
  exact congrArg (fun f => Finset.fold max (Ideal.ofBits .f32 acc) f (Finset.univ : Finset (Fin n))) hf

/-- The lane sum of row `(g, a)`: the sum of the row's entries. -/
theorem laneSum_apply (s : FVec Ideal ⟨3, ![G, m, n]⟩ .f32) (acc : BitVec 32)
    (h : (⟨3, ![G, m, n]⟩ : Shape).Reduces [2] (⟨2, ![G, m]⟩ : Shape)) (hφ : FKind.Formats .f32)
    (hacc : acc = FKind.add.neutral .f32 hφ) (g : Fin G) (a : Fin m) :
    multiReduction .add [2] ⟨2, ![G, m]⟩ s acc h hφ hacc (ix2 g a)
      = ∑ j : Fin n, s (ix3 g a j) := by
  refine (Ideal.multiReduction_add_single s acc h hφ hacc (ix2 g a)).trans ?_
  exact Finset.sum_congr rfl fun k _ => congrArg s (lift3 h g a k)

/-- A per-row value `[G, m]` given a trailing unit axis and broadcast along the lanes reads, at every entry of row
    `(g, a)`, the row's value. -/
theorem keepLanes_apply {α : Type} (v : (⟨2, ![G, m]⟩ : Shape).Idx → α)
    (hc : (⟨2, ![G, m]⟩ : Shape).ShapeCasts ⟨3, ![G, m, 1]⟩)
    (hb : (⟨3, ![G, m, 1]⟩ : Shape).Broadcasts ⟨3, ![G, m, n]⟩) (g : Fin G) (a : Fin m) (j : Fin n) :
    broadcastTo ⟨3, ![G, m, n]⟩ (shapeCast ⟨3, ![G, m, 1]⟩ v hc) hb (ix3 g a j) = v (ix2 g a) := by
  refine (broadcastTo_apply _ hb (ix3 g a j) (ix3 g a (0 : Fin 1)) ?_).trans ?_
  · intro c
    fin_cases c
    · by_cases h1 : G = 1
      · subst h1
        have : g.val = 0 := by omega
        simp [this]
      · simp [h1]
    · by_cases h1 : m = 1
      · subst h1
        have : a.val = 0 := by omega
        simp [this]
      · simp [h1]
    · simp
  · exact shapeCast_apply v hc _ _ (by
      rw [Shape.rowMajor_val_two, Shape.rowMajor_val_three]
      show g.val * m + a.val = (g.val * m + a.val) * 1 + 0
      omega)

/-! ## A `[B, H, m, n]` array reduced over its last axis to `[B, H, m]` by the host -/

/-- The reduced index `(u, h, a)` with the last coordinate `k` put back is `(u, h, a, k)`. -/
theorem lift4 (r : (⟨4, ![B, H, m, n]⟩ : Shape).Reduces [3] (⟨3, ![B, H, m]⟩ : Shape)) (u : Fin B) (h : Fin H) (a : Fin m)
    (k : Fin ((⟨4, ![B, H, m, n]⟩ : Shape).size 3)) :
    r.lift (ix3 u h a) k = ix4 u h a (⟨k.val, k.isLt⟩ : Fin n) := by
  funext c; apply Fin.ext
  fin_cases c <;> rfl

/-- The host's reduce with a maximum body over the last axis: at row `(u, h, a)` the fold of `max` over the row's
    entries, from the initial value's element. -/
theorem hostRowMax_apply {S0 : Shape} (x : FVec Ideal ⟨4, ![B, H, m, n]⟩ .f32) (init : S0.Idx → Ideal .f32)
    (r' : (⟨4, ![B, H, m, n]⟩ : Shape).ReducesTo [3] (⟨3, ![B, H, m]⟩ : Shape))
    (r : (⟨4, ![B, H, m, n]⟩ : Shape).Reduces [3] (⟨3, ![B, H, m]⟩ : Shape))
    (hu : 0 < S0.numel) (u : Fin B) (h : Fin H) (a : Fin m) :
    Host.reduce FloatOps.maximumf x init r' hu (ix3 u h a)
      = (Finset.univ : Finset (Fin n)).fold max (init (Shape.Idx.first hu)) (fun j => x (ix4 u h a j)) := by
  rw [Host.reduce_eq_fold_single FloatOps.maximumf x init r' r hu]
  have hf : (x ∘ r.lift (ix3 u h a)) = fun j : Fin n => x (ix4 u h a j) :=
    funext fun k => congrArg x (lift4 r u h a k)
  exact congrArg (fun f => Finset.fold max (init (Shape.Idx.first hu)) f (Finset.univ : Finset (Fin n))) hf

/-- A fold of `max` is at least the value it starts from, so taking the maximum with that value again changes
    nothing. -/
theorem max_fold_max_self {ι : Type} (s : Finset ι) (b : EReal) (f : ι → EReal) :
    max b (s.fold max b f) = s.fold max b f :=
  max_eq_right ((Finset.le_fold_max b).mpr (Or.inl le_rfl))

end Cert.Lib.RowReduce

end
-- ==== Proof.LibHostRowMax.lean ====
/-
  The host's one-operand reduction over the last axis of a rank-3 array, read at a row given by coordinates.

  An array `[B, m, n]` reduced over axis 2 with a commutative and associative body `f` has, at row `(b, q)`,
  the fold of `f` from the initial value's element over the row's `n` entries `x (b, q, k)`. This is the
  library's statement for a reduction over any single axis (the fold over the source indices that drop to
  the result index, re-indexed by the dropped axis's coordinate) with the inserted index computed for the
  literal axis 2 of a rank-3 shape: `(b, q)` with `k` inserted last is `(b, q, k)`.
-/
import Idealize.ShloMosaic.PureOps.Reduce
import Idealize.ShloMosaic.Lib.ValueIdx

namespace Cert.HostRowMax

open Idealize.ShloMosaic Idealize.ShloMosaic.ValueIdx

variable {α : Type}

/-- The row index `(b, q)` of a `[B, m]` result with coordinate `k` put back on the dropped last axis of
    `[B, m, n]` is `(b, q, k)`. -/
theorem lift_ix3 {B m n : Nat} (h : (⟨3, ![B, m, n]⟩ : Shape).Reduces [2] (⟨2, ![B, m]⟩ : Shape)) (b : Fin B) (q : Fin m)
    (k : Fin ((⟨3, ![B, m, n]⟩ : Shape).size 2)) : h.lift (ix2 b q) k = ix3 b q (⟨k.val, k.isLt⟩ : Fin n) := by
  funext c; apply Fin.ext
  fin_cases c <;> rfl

/-- A one-operand host reduction of a `[B, m, n]` array over its last axis, with a commutative and
    associative body, is at row `(b, q)` the fold of the body from the initial value's element over the
    row's entries. -/
theorem hostReduce_lastAxis3_apply {B m n : Nat} {u : Shape} (f : α → α → α) [Std.Commutative f] [Std.Associative f]
    (x : (⟨3, ![B, m, n]⟩ : Shape).Idx → α) (init : u.Idx → α)
    (h' : (⟨3, ![B, m, n]⟩ : Shape).ReducesTo [2] (⟨2, ![B, m]⟩ : Shape))
    (h : (⟨3, ![B, m, n]⟩ : Shape).Reduces [2] (⟨2, ![B, m]⟩ : Shape)) (hu : 0 < u.numel) (b : Fin B) (q : Fin m) :
    Host.reduce f x init h' hu (ix2 b q)
      = (Finset.univ : Finset (Fin n)).fold f (init (Shape.Idx.first hu)) (fun k => x (ix3 b q k)) := by
  rw [Host.reduce_eq_fold_single f x init h' h hu]
  have hf : (x ∘ h.lift (ix2 b q)) = fun k : Fin n => x (ix3 b q k) := funext fun k => congrArg x (lift_ix3 h b q k)
  exact congrArg (fun g => Finset.fold f (init (Shape.Idx.first hu)) g (Finset.univ : Finset (Fin n))) hf

end Cert.HostRowMax
-- ==== Proof.RefValue.lean ====
/-
  The reference's result, read index by index, is the specification's.
-/
import proofs.«112821_j10754598109467_2_alg».proof.Proof.Gen.ReferenceIdeal.Read
import proofs.«112821_j10754598109467_2_alg».proof.Proof.Spec
import proofs.«112821_j10754598109467_2_alg».proof.Proof.LibRowReduce
import proofs.«112821_j10754598109467_2_alg».proof.Proof.LibHostRowMax

noncomputable section

namespace Cert.ReferenceIdeal.RefValue

open Idealize.ShloMosaic Idealize.ShloMosaic.ValueIdx Cert.ReferenceIdeal Cert.ReferenceIdeal.Read

/-! ## The linear layers

Each projection is a contraction over the 256 features followed by the bias broadcast along the leading axes; read
at an entry it is the specification's linear layer at that output feature. -/

section Linear

/-- An array of 32-bit floats over a shape, at the ideal values. -/
private abbrev Arr (s : Shape) : Type := (⟨s, .f32⟩ : BufTy).Contents (Elt Ideal)

/-- The query projection at position `(s, t)` and output feature `d`. -/
private theorem query_apply (x0 : Arr S2x512x256) (x3 : Arr S256x256) (x4 : Arr S256) (s : Fin 2) (t : Fin 512) (d : Fin 256) :
    val_main_v3 (F := Ideal) x0 x3 x4 (ix3 s t d) = MaxSim.query x0 x3 x4 s t d := by
  rw [val_main_v3_apply, val_main_v0_apply, val_main_v2_apply, val_main_v1_apply, Ideal.addf_def]
  unfold MaxSim.query MaxSim.lin
  have e1 : ∀ k : Fin 256, lidx_main_v0 (ix3 s t d) k = ix3 s t k := fun k =>
    funext fun a => Fin.ext (by match a with | ⟨0, _⟩ => rfl | ⟨1, _⟩ => rfl | ⟨2, _⟩ => rfl)
  have e2 : ∀ k : Fin 256, ridx_main_v0 (ix3 s t d) k = ix2 d k := fun k =>
    funext fun a => Fin.ext (by match a with | ⟨0, _⟩ => rfl | ⟨1, _⟩ => rfl)
  have e3 : idx_main_v1 (idx_main_v2 (ix3 s t d)) = ix1 d :=
    funext fun a => Fin.ext (by match a with | ⟨0, _⟩ => rfl)
  rw [e3]
  refine congrArg (· + x4 (ix1 d)) ?_
  refine Finset.sum_congr rfl fun k _ => ?_
  rw [e1, e2]

/-- The second projection of the query's first family at `(s, t)` and output feature `f`. -/
private theorem proj1_apply (x0 : Arr S2x512x256) (x3 : Arr S256x256) (x4 : Arr S256) (x5 : Arr S256x256) (x6 : Arr S256)
    (s : Fin 2) (t : Fin 512) (f : Fin 256) :
    val_main_v7 (F := Ideal) x0 x3 x4 x5 x6 (ix3 s t f) = MaxSim.lin (MaxSim.query x0 x3 x4 s t) x5 x6 f := by
  rw [val_main_v7_apply, val_main_v4_apply, val_main_v6_apply, val_main_v5_apply, Ideal.addf_def]
  unfold MaxSim.lin
  have e1 : ∀ k : Fin 256, lidx_main_v4 (ix3 s t f) k = ix3 s t k := fun k =>
    funext fun a => Fin.ext (by match a with | ⟨0, _⟩ => rfl | ⟨1, _⟩ => rfl | ⟨2, _⟩ => rfl)
  have e2 : ∀ k : Fin 256, ridx_main_v4 (ix3 s t f) k = ix2 f k := fun k =>
    funext fun a => Fin.ext (by match a with | ⟨0, _⟩ => rfl | ⟨1, _⟩ => rfl)
  have e3 : idx_main_v5 (idx_main_v6 (ix3 s t f)) = ix1 f :=
    funext fun a => Fin.ext (by match a with | ⟨0, _⟩ => rfl)
  rw [e3]
  refine congrArg (· + x6 (ix1 f)) ?_
  refine Finset.sum_congr rfl fun k _ => ?_
  rw [e1, e2, query_apply]

/-- The second projection of the query's second family at `(s, t)` and output feature `f`. -/
private theorem proj2_apply (x0 : Arr S2x512x256) (x3 : Arr S256x256) (x4 : Arr S256) (x9 : Arr S256x256) (x10 : Arr S256)
    (s : Fin 2) (t : Fin 512) (f : Fin 256) :
    val_main_v11 (F := Ideal) x0 x3 x4 x9 x10 (ix3 s t f) = MaxSim.lin (MaxSim.query x0 x3 x4 s t) x9 x10 f := by
  rw [val_main_v11_apply, val_main_v8_apply, val_main_v10_apply, val_main_v9_apply, Ideal.addf_def]
  unfold MaxSim.lin
  have e1 : ∀ k : Fin 256, lidx_main_v8 (ix3 s t f) k = ix3 s t k := fun k =>
    funext fun a => Fin.ext (by match a with | ⟨0, _⟩ => rfl | ⟨1, _⟩ => rfl | ⟨2, _⟩ => rfl)
  have e2 : ∀ k : Fin 256, ridx_main_v8 (ix3 s t f) k = ix2 f k := fun k =>
    funext fun a => Fin.ext (by match a with | ⟨0, _⟩ => rfl | ⟨1, _⟩ => rfl)
  have e3 : idx_main_v9 (idx_main_v10 (ix3 s t f)) = ix1 f :=
    funext fun a => Fin.ext (by match a with | ⟨0, _⟩ => rfl)
  rw [e3]
  refine congrArg (· + x10 (ix1 f)) ?_
  refine Finset.sum_congr rfl fun k _ => ?_
  rw [e1, e2, query_apply]

/-- Token `j` of candidate `c` of the 32-token family, projected, at output feature `f`. -/
private theorem key1_apply (x1 : Arr S2000x32x256) (x7 : Arr S256x256) (x8 : Arr S256)
    (c : Fin 2000) (j : Fin 32) (f : Fin 256) :
    val_main_v15 (F := Ideal) x1 x7 x8 (ix3 c j f) = MaxSim.key x1 x7 x8 c j f := by
  rw [val_main_v15_apply, val_main_v12_apply, val_main_v14_apply, val_main_v13_apply, Ideal.addf_def]
  unfold MaxSim.key MaxSim.lin
  have e1 : ∀ k : Fin 256, lidx_main_v12 (ix3 c j f) k = ix3 c j k := fun k =>
    funext fun a => Fin.ext (by match a with | ⟨0, _⟩ => rfl | ⟨1, _⟩ => rfl | ⟨2, _⟩ => rfl)
  have e2 : ∀ k : Fin 256, ridx_main_v12 (ix3 c j f) k = ix2 f k := fun k =>
    funext fun a => Fin.ext (by match a with | ⟨0, _⟩ => rfl | ⟨1, _⟩ => rfl)
  have e3 : idx_main_v13 (idx_main_v14 (ix3 c j f)) = ix1 f :=
    funext fun a => Fin.ext (by match a with | ⟨0, _⟩ => rfl)
  rw [e3]
  refine congrArg (· + x8 (ix1 f)) ?_
  refine Finset.sum_congr rfl fun k _ => ?_
  rw [e1, e2]

/-- Token `j` of candidate `c` of the 24-token family, projected, at output feature `f`. -/
private theorem key2_apply (x2 : Arr S2000x24x256) (x11 : Arr S256x256) (x12 : Arr S256)
    (c : Fin 2000) (j : Fin 24) (f : Fin 256) :
    val_main_v19 (F := Ideal) x2 x11 x12 (ix3 c j f) = MaxSim.key x2 x11 x12 c j f := by
  rw [val_main_v19_apply, val_main_v16_apply, val_main_v18_apply, val_main_v17_apply, Ideal.addf_def]
  unfold MaxSim.key MaxSim.lin
  have e1 : ∀ k : Fin 256, lidx_main_v16 (ix3 c j f) k = ix3 c j k := fun k =>
    funext fun a => Fin.ext (by match a with | ⟨0, _⟩ => rfl | ⟨1, _⟩ => rfl | ⟨2, _⟩ => rfl)
  have e2 : ∀ k : Fin 256, ridx_main_v16 (ix3 c j f) k = ix2 f k := fun k =>
    funext fun a => Fin.ext (by match a with | ⟨0, _⟩ => rfl | ⟨1, _⟩ => rfl)
  have e3 : idx_main_v17 (idx_main_v18 (ix3 c j f)) = ix1 f :=
    funext fun a => Fin.ext (by match a with | ⟨0, _⟩ => rfl)
  rw [e3]
  refine congrArg (· + x12 (ix1 f)) ?_
  refine Finset.sum_congr rfl fun k _ => ?_
  rw [e1, e2]

/-! ## The inner products and their maxima over a candidate's tokens -/

/-- The inner product of the query row at `(s, t)` with token `j` of candidate `c`, 32-token family. -/
private theorem dots1_apply (x0 : Arr S2x512x256) (x1 : Arr S2000x32x256) (x3 : Arr S256x256) (x4 : Arr S256)
    (x5 : Arr S256x256) (x6 : Arr S256) (x7 : Arr S256x256) (x8 : Arr S256)
    (s : Fin 2) (t : Fin 512) (c : Fin 2000) (j : Fin 32) :
    val_main_v20 (F := Ideal) x0 x1 x3 x4 x5 x6 x7 x8 (ix4 s t c j)
      = ∑ d : Fin 256, MaxSim.lin (MaxSim.query x0 x3 x4 s t) x5 x6 d * MaxSim.key x1 x7 x8 c j d := by
  rw [val_main_v20_apply]
  have e1 : ∀ k : Fin 256, lidx_main_v20 (ix4 s t c j) k = ix3 s t k := fun k =>
    funext fun a => Fin.ext (by match a with | ⟨0, _⟩ => rfl | ⟨1, _⟩ => rfl | ⟨2, _⟩ => rfl)
  have e2 : ∀ k : Fin 256, ridx_main_v20 (ix4 s t c j) k = ix3 c j k := fun k =>
    funext fun a => Fin.ext (by match a with | ⟨0, _⟩ => rfl | ⟨1, _⟩ => rfl | ⟨2, _⟩ => rfl)
  refine Finset.sum_congr rfl fun k _ => ?_
  rw [e1, e2, proj1_apply, key1_apply]

/-- The inner product of the query row at `(s, t)` with token `j` of candidate `c`, 24-token family. -/
private theorem dots2_apply (x0 : Arr S2x512x256) (x2 : Arr S2000x24x256) (x3 : Arr S256x256) (x4 : Arr S256)
    (x9 : Arr S256x256) (x10 : Arr S256) (x11 : Arr S256x256) (x12 : Arr S256)
    (s : Fin 2) (t : Fin 512) (c : Fin 2000) (j : Fin 24) :
    val_main_v22 (F := Ideal) x0 x2 x3 x4 x9 x10 x11 x12 (ix4 s t c j)
      = ∑ d : Fin 256, MaxSim.lin (MaxSim.query x0 x3 x4 s t) x9 x10 d * MaxSim.key x2 x11 x12 c j d := by
  rw [val_main_v22_apply]
  have e1 : ∀ k : Fin 256, lidx_main_v22 (ix4 s t c j) k = ix3 s t k := fun k =>
    funext fun a => Fin.ext (by match a with | ⟨0, _⟩ => rfl | ⟨1, _⟩ => rfl | ⟨2, _⟩ => rfl)
  have e2 : ∀ k : Fin 256, ridx_main_v22 (ix4 s t c j) k = ix3 c j k := fun k =>
    funext fun a => Fin.ext (by match a with | ⟨0, _⟩ => rfl | ⟨1, _⟩ => rfl | ⟨2, _⟩ => rfl)
  refine Finset.sum_congr rfl fun k _ => ?_
  rw [e1, e2, proj2_apply, key2_apply]

/-- The best inner product over the 32 tokens of candidate `c`. -/
private theorem maxsim1_apply (x0 : Arr S2x512x256) (x1 : Arr S2000x32x256) (x3 : Arr S256x256) (x4 : Arr S256)
    (x5 : Arr S256x256) (x6 : Arr S256) (x7 : Arr S256x256) (x8 : Arr S256)
    (s : Fin 2) (t : Fin 512) (c : Fin 2000) :
    val_main_v21 (F := Ideal) x0 x1 x3 x4 x5 x6 x7 x8 (ix3 s t c)
      = MaxSim.maxsim (MaxSim.lin (MaxSim.query x0 x3 x4 s t) x5 x6) (MaxSim.key x1 x7 x8 c) := by
  unfold val_main_v21 MaxSim.maxsim
  refine (Cert.Lib.RowReduce.hostRowMax_apply _ _ _ (by decide) _ s t c).trans ?_
  have hf : (fun j : Fin 32 => val_main_v20 (F := Ideal) x0 x1 x3 x4 x5 x6 x7 x8 (ix4 s t c j))
      = fun j => ∑ d : Fin 256, MaxSim.lin (MaxSim.query x0 x3 x4 s t) x5 x6 d * MaxSim.key x1 x7 x8 c j d :=
    funext fun j => dots1_apply x0 x1 x3 x4 x5 x6 x7 x8 s t c j
  exact congrArg (fun f => Finset.fold max MaxSim.floor f (Finset.univ : Finset (Fin 32))) hf

/-- The best inner product over the 24 tokens of candidate `c`. -/
private theorem maxsim2_apply (x0 : Arr S2x512x256) (x2 : Arr S2000x24x256) (x3 : Arr S256x256) (x4 : Arr S256)
    (x9 : Arr S256x256) (x10 : Arr S256) (x11 : Arr S256x256) (x12 : Arr S256)
    (s : Fin 2) (t : Fin 512) (c : Fin 2000) :
    val_main_v23 (F := Ideal) x0 x2 x3 x4 x9 x10 x11 x12 (ix3 s t c)
      = MaxSim.maxsim (MaxSim.lin (MaxSim.query x0 x3 x4 s t) x9 x10) (MaxSim.key x2 x11 x12 c) := by
  unfold val_main_v23 MaxSim.maxsim
  refine (Cert.Lib.RowReduce.hostRowMax_apply _ _ _ (by decide) _ s t c).trans ?_
  have hf : (fun j : Fin 24 => val_main_v22 (F := Ideal) x0 x2 x3 x4 x9 x10 x11 x12 (ix4 s t c j))
      = fun j => ∑ d : Fin 256, MaxSim.lin (MaxSim.query x0 x3 x4 s t) x9 x10 d * MaxSim.key x2 x11 x12 c j d :=
    funext fun j => dots2_apply x0 x2 x3 x4 x9 x10 x11 x12 s t c j
  exact congrArg (fun f => Finset.fold max MaxSim.floor f (Finset.univ : Finset (Fin 24))) hf

end Linear

/-! ## The logits and the softmax over the candidates -/

section Softmax

variable (x0 : Arr S2x512x256) (x1 : Arr S2000x32x256) (x2 : Arr S2000x24x256) (x3 : Arr S256x256) (x4 : Arr S256)
  (x5 : Arr S256x256) (x6 : Arr S256) (x7 : Arr S256x256) (x8 : Arr S256) (x9 : Arr S256x256) (x10 : Arr S256)
  (x11 : Arr S256x256) (x12 : Arr S256)

/-- The pattern of `1.0` denotes the real number one. -/
private theorem ofBits_one : Ideal.ofBits .f32 0x3F800000#32 = ((1 : ℝ) : EReal) := by
  simp [Ideal.ofBits, Ideal.ieee, -EReal.coe_mul]; norm_num

/-- Dividing by the pattern of `1.0` changes nothing. -/
private theorem div_one_bits (x : EReal) : Ideal.div x (Ideal.ofBits .f32 0x3F800000#32) = x := by
  rw [ofBits_one, Ideal.div_coe (by norm_num : (1 : ℝ) ≠ 0)]
  norm_num

/-- The two families' scores added, then divided by one: the logit of candidate `c` at `(s, t)`. -/
private theorem logit_apply (s : Fin 2) (t : Fin 512) (c : Fin 2000) :
    val_main_v26 (F := Ideal) x0 x1 x2 x3 x4 x5 x6 x7 x8 x9 x10 x11 x12 (ix3 s t c)
      = MaxSim.logit x0 x1 x2 x3 x4 x5 x6 x7 x8 x9 x10 x11 x12 s t c := by
  rw [val_main_v26_apply, val_main_v25_apply, val_main_cst_1_apply, Ideal.ofBits_def, Ideal.hostDivf_def, div_one_bits,
    val_main_v24_apply, Ideal.addf_def, maxsim1_apply, maxsim2_apply]
  rfl

/-- The running maximum of the 2000 logits of position `(s, t)`, from the floor. -/
private theorem fold_apply (s : Fin 2) (t : Fin 512) :
    val_main_v27 (F := Ideal) x0 x1 x2 x3 x4 x5 x6 x7 x8 x9 x10 x11 x12 (ix2 s t)
      = (Finset.univ : Finset (Fin 2000)).fold max MaxSim.floor
          (fun c => MaxSim.logit x0 x1 x2 x3 x4 x5 x6 x7 x8 x9 x10 x11 x12 s t c) := by
  unfold val_main_v27
  refine (Cert.HostRowMax.hostReduce_lastAxis3_apply FloatOps.maximumf _ _ _ (by decide) _ s t).trans ?_
  have hf : (fun k : Fin 2000 => val_main_v26 (F := Ideal) x0 x1 x2 x3 x4 x5 x6 x7 x8 x9 x10 x11 x12 (ix3 s t k))
      = fun c => MaxSim.logit x0 x1 x2 x3 x4 x5 x6 x7 x8 x9 x10 x11 x12 s t c :=
    funext fun k => logit_apply x0 x1 x2 x3 x4 x5 x6 x7 x8 x9 x10 x11 x12 s t k
  exact congrArg (fun f => Finset.fold max MaxSim.floor f (Finset.univ : Finset (Fin 2000))) hf

/-- The row maximum the softmax subtracts. -/
private theorem rowMax_apply (s : Fin 2) (t : Fin 512) :
    val_main_v29 (F := Ideal) x0 x1 x2 x3 x4 x5 x6 x7 x8 x9 x10 x11 x12 (ix2 s t)
      = MaxSim.rowMax (fun c => MaxSim.logit x0 x1 x2 x3 x4 x5 x6 x7 x8 x9 x10 x11 x12 s t c) := by
  rw [val_main_v29_apply, val_main_v28_apply, val_main_cst_3_apply, Ideal.ofBits_def, Ideal.maximumf_def, fold_apply]
  rfl

/-- The exponential of the shifted logit. -/
private theorem exp_apply (s : Fin 2) (t : Fin 512) (c : Fin 2000) :
    val_main_v33 (F := Ideal) x0 x1 x2 x3 x4 x5 x6 x7 x8 x9 x10 x11 x12 (ix3 s t c)
      = Ideal.exp (MaxSim.logit x0 x1 x2 x3 x4 x5 x6 x7 x8 x9 x10 x11 x12 s t c
          - MaxSim.rowMax (fun c' => MaxSim.logit x0 x1 x2 x3 x4 x5 x6 x7 x8 x9 x10 x11 x12 s t c')) := by
  have e : idx_main_v30 (idx_main_v31 (ix3 s t c)) = ix2 s t :=
    funext fun a => Fin.ext (by match a with | ⟨0, _⟩ => rfl | ⟨1, _⟩ => rfl)
  rw [val_main_v33_apply, Ideal.hostUnary_exp_def, val_main_v32_apply, Ideal.subf_def, logit_apply,
    val_main_v31_apply, val_main_v30_apply, e, rowMax_apply]

/-- The sum of the exponentials over the candidates, from the pattern of zero. -/
private theorem sum_apply (s : Fin 2) (t : Fin 512) :
    val_main_v34 (F := Ideal) x0 x1 x2 x3 x4 x5 x6 x7 x8 x9 x10 x11 x12 (ix2 s t)
      = Ideal.ofBits .f32 0x00000000#32 + ∑ c' : Fin 2000,
          Ideal.exp (MaxSim.logit x0 x1 x2 x3 x4 x5 x6 x7 x8 x9 x10 x11 x12 s t c'
            - MaxSim.rowMax (fun c'' => MaxSim.logit x0 x1 x2 x3 x4 x5 x6 x7 x8 x9 x10 x11 x12 s t c'')) := by
  rw [val_main_v34_apply, val_main_cst_4_apply, Ideal.ofBits_def]
  refine congrArg (Ideal.ofBits .f32 0x00000000#32 + ·) ?_
  refine Finset.sum_congr rfl fun k _ => ?_
  have e : idx_main_v34 (ix2 s t) k = ix3 s t k :=
    funext fun a => Fin.ext (by match a with | ⟨0, _⟩ => rfl | ⟨1, _⟩ => rfl | ⟨2, _⟩ => rfl)
  rw [e, exp_apply]

/-- The reference's result at `(s, t, c)`: the softmax of the logits of `(s, t)` at candidate `c`. -/
private theorem softmax_apply (s : Fin 2) (t : Fin 512) (c : Fin 2000) :
    val_main_v37 (F := Ideal) x0 x1 x2 x3 x4 x5 x6 x7 x8 x9 x10 x11 x12 (ix3 s t c)
      = MaxSim.softmaxAt (fun c' => MaxSim.logit x0 x1 x2 x3 x4 x5 x6 x7 x8 x9 x10 x11 x12 s t c') c := by
  have e : idx_main_v35 (idx_main_v36 (ix3 s t c)) = ix2 s t :=
    funext fun a => Fin.ext (by match a with | ⟨0, _⟩ => rfl | ⟨1, _⟩ => rfl)
  rw [val_main_v37_apply, Ideal.hostDivf_def, exp_apply, val_main_v36_apply, val_main_v35_apply, e, sum_apply]
  rfl

end Softmax

theorem ref_result (x0 : (⟨S2x512x256, .f32⟩ : BufTy).Contents (Elt Ideal)) (x1 : (⟨S2000x32x256, .f32⟩ : BufTy).Contents (Elt Ideal))
    (x2 : (⟨S2000x24x256, .f32⟩ : BufTy).Contents (Elt Ideal)) (x3 : (⟨S256x256, .f32⟩ : BufTy).Contents (Elt Ideal))
    (x4 : (⟨S256, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal))
    (x8 : (⟨S256, .f32⟩ : BufTy).Contents (Elt Ideal)) (x9 : (⟨S256x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) :
    val_main_v37 (F := Ideal) x0 x1 x2 x3 x4 x5 x6 x7 x8 x9 x10 x11 x12
      = MaxSim.result x0 x1 x2 x3 x4 x5 x6 x7 x8 x9 x10 x11 x12 := by
  funext i
  obtain ⟨s, t, c, rfl⟩ : ∃ (s : Fin 2) (t : Fin 512) (c : Fin 2000), i = ix3 s t c := ⟨i 0, i 1, i 2, eq_ix3 i⟩
  exact softmax_apply x0 x1 x2 x3 x4 x5 x6 x7 x8 x9 x10 x11 x12 s t c

end Cert.ReferenceIdeal.RefValue

end
-- ==== Proof.lean ====
/-
  The certificate's five claims.

  Both idealized programs compute, for each of the 2 × 512 query positions, a distribution over 2000 candidates: the
  query row goes through two linear layers (one pair of weights per token family), each candidate's 32 and 24 token
  rows through one linear layer each, a candidate's logit is the sum over the two families of the largest inner
  product of the projected query with one of the candidate's projected tokens, and the logits of one query are passed
  through a softmax. The kernel does this in two on-chip regions (the query projections once; then the scores in 25 row
  blocks of 80 candidates) and a softmax down the candidate axis of the [2000, 1024] score array, which it then
  transposes; the reference does it with whole-array contractions and a softmax along the last axis. Over the extended
  reals the two agree entry by entry: a change of float format is the identity, a contraction is the same finite sum
  however it is tiled, a running maximum does not depend on the axis it runs along, the product of two extended reals
  commutes, and a quotient by one is the dividend. No finiteness of the inputs is used.
-/
import proofs.«112821_j10754598109467_2_alg».proof.Defs
import proofs.«112821_j10754598109467_2_alg».proof.Proof.Gen.Kernel
import proofs.«112821_j10754598109467_2_alg».proof.Proof.Gen.Kernel.Frame
import proofs.«112821_j10754598109467_2_alg».proof.Proof.Gen.KernelIdeal
import proofs.«112821_j10754598109467_2_alg».proof.Proof.Gen.KernelIdeal.Frame
import proofs.«112821_j10754598109467_2_alg».proof.Proof.Gen.ReferenceIdeal
import proofs.«112821_j10754598109467_2_alg».proof.Proof.Gen.ReferenceIdeal.Run
import proofs.«112821_j10754598109467_2_alg».proof.Proof.Gen.ReferenceIdeal.Read
import proofs.«112821_j10754598109467_2_alg».proof.Proof.Gen.Pre_finite_inputs
import proofs.«112821_j10754598109467_2_alg».proof.Proof.RunValue
import proofs.«112821_j10754598109467_2_alg».proof.Proof.KernelValue
import proofs.«112821_j10754598109467_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference is a line of host operations: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the specification's function of the argument arrays, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.MaxSim.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v37_eq, Cert.ReferenceIdeal.RefValue.ref_result,
      a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
